-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S128x128 .f32) (main_arg5 : FVec F S128 .f32) (main_arg6 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  main_v32

def fn {F : FTy → Type} [FloatOps F] (main_arg0 : FVec F S1x10000x128 .f32) (main_arg1 : FVec F S1x10000x10000 .f32) (main_arg2 : FVec F S128x128 .f32) (main_arg3 : FVec F S128 .f32) (main_arg4 : FVec F S128x128 .f32) (main_arg5 : FVec F S128 .f32) (main_arg6 : FVec F S_ .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S10000x128 : Shape := ⟨2, ![10000, 128]⟩
abbrev S1x128 : Shape := ⟨2, ![1, 128]⟩
abbrev S1x1 : Shape := ⟨2, ![1, 1]⟩
abbrev S1x400x10000 : Shape := ⟨3, ![1, 400, 10000]⟩
abbrev S400x128 : Shape := ⟨2, ![400, 128]⟩
abbrev S400x10000 : Shape := ⟨2, ![400, 10000]⟩

abbrev nBuf : Space → Nat
  | .hbm => 15
  | .vmem => 12
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S10000x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S1x128, .f32⟩
  | .hbm, ⟨12, _⟩ => ⟨S1x1, .f32⟩
  | .hbm, ⟨13, _⟩ => ⟨S10000x128, .f32⟩
  | .hbm, ⟨14, _⟩ => ⟨S1x10000x128, .f32⟩
  | .local _ .vmem, ⟨0, _⟩ => ⟨S1x400x10000, .f32⟩
  | .local _ .vmem, ⟨1, _⟩ => ⟨S1x400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S1x1, .f32⟩
  | .local _ .vmem, ⟨8, _⟩ => ⟨S400x128, .f32⟩
  | .local _ .vmem, ⟨9, _⟩ => ⟨S400x128, .f32⟩
  | .local _ .vmem, ⟨10, _⟩ => ⟨S10000x128, .f32⟩
  | .local _ .vmem, ⟨11, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_4 : BitVec 32 := 0#32
  let v7 : BitVec 1 := Scalar.cmpi .eq arg0 c0_i32_4
  let v8 : BitVec 32 := Scalar.extui v7
  let c0_i32_5 : BitVec 32 := 0#32
  let v9 : BitVec 1 := Scalar.cmpi .ne v8 c0_i32_5
  v9

def k0_off1 (i : grid0.Coords) : Fin 2 → Nat :=
  let arg1 : BitVec 32 := BitVec.ofNat 32 (i 1).val
  let c400_i32 : BitVec 32 := 400#32
  let v31 : BitVec 32 := Scalar.muli arg1 c400_i32
  let v32 : Index := Scalar.indexCast v31
  let c0_18 : Index := 0#32
  ![v32.toNat, 0]
def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_6 : BitVec 32 := 0#32
  let v12 : BitVec 1 := Scalar.cmpi .ne v11 c0_i32_6
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S1x10000x128_S10000x128 : S1x10000x128.ShapeCasts S10000x128
  transposes_S128x128_S128x128_1_0 : S128x128.Transposes [1, 0] S128x128
  shapeCasts_S128_S1x128 : S128.ShapeCasts S1x128
  shapeCasts_S_S1x1 : S_.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  shapeCasts_S10000x128_S1x10000x128 : S10000x128.ShapeCasts S1x10000x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S1x10000x10000.size a
  hwx0_0 : ∀ i : grid0.Coords, EltTy.bits .f32 = 32 ∨ (Rect.block (s := S1x10000x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond3 i == 1#1) | ⟨_ + 8, h⟩ => absurd h (Nat.not_lt.2 (Nat.le_add_left _ _))

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S1x1x128 : Shape := ⟨3, ![1, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S1x10000x128, .f32⟩
  | .hbm, ⟨8, _⟩ => ⟨S1x1x128, .f32⟩
  | .hbm, ⟨9, _⟩ => ⟨S1x10000x128, .f32⟩
  | .hbm, ⟨10, _⟩ => ⟨S1x10000x128, .f32⟩
  | .hbm, ⟨11, _⟩ => ⟨S1x10000x128, .f32⟩
  | .hbm, ⟨12, _⟩ => ⟨S_, .f32⟩
  | .hbm, ⟨13, _⟩ => ⟨S1x10000x128, .f32⟩
  | .hbm, ⟨14, _⟩ => ⟨S1x10000x128, .f32⟩
  | .hbm, ⟨15, _⟩ => ⟨S_, .f32⟩
  | .hbm, ⟨16, _⟩ => ⟨S1x10000x128, .f32⟩
  | .hbm, ⟨17, _⟩ => ⟨S1x10000x128, .f32⟩
  | .hbm, ⟨18, _⟩ => ⟨S1x10000x128, .f32⟩
  | .hbm, ⟨19, _⟩ => ⟨S1x10000x128, .f32⟩
  | .hbm, ⟨20, _⟩ => ⟨S1x10000x128, .f32⟩
  | .hbm, ⟨21, _⟩ => ⟨S1x10000x128, .f32⟩
  | .hbm, ⟨22, _⟩ => ⟨S1x1x128, .f32⟩
  | .hbm, ⟨23, _⟩ => ⟨S1x10000x128, .f32⟩
  | .hbm, ⟨24, _⟩ => ⟨S1x10000x128, .f32⟩
  | .hbm, ⟨25, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.BCases.lean ====
/-
  The kernel body, case by case, with every buffer's contents NAMED.

  The grid has 2 × 25 points. At a point (g, j) the body
    • (g, j) = (0, 0) only: stores  H = x·W1ᵗ + b1  (all N rows) into the first scratch;
    • g = 0: reads H back, forms the strip  S_j = prelu(A_j · H)·W2ᵗ + b2  of 400 rows from the point's
      adjacency strip A_j, and stores it into rows [400 j, 400 j + 400) of the second scratch, the other
      rows of that scratch keeping what they held;
    • g = 1: reads the second scratch whole, and stores  A_j · (second scratch)  into the output block.
  Three cases occur: the first point (first and second bullet), the other points of g = 0 (second bullet), the
  points of g = 1 (third bullet). Each is run symbolically below, on whole staging buffers at named contents, to a
  postcondition naming what every buffer then holds; what the second scratch holds after a strip store is stated
  as the read-back of that store over its previous contents (`stripStored`) and read at an index in the next module.
  Everything here is generic in the float instance.
-/
import proofs.«142808_g28707561406990_cont_9to1_1291_10_alg».proof.Proof.Gen.Kernel.Frame
import proofs.«142808_g28707561406990_cont_9to1_1291_10_alg».proof.Proof.Gen.Kernel.Skeleton
import Idealize.ShloMosaic.Lib.Pipeline.Frame
import Idealize.ShloMosaic.Lib.Exec.Geometry
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The body's branch conditions, decided over the grid -/

/-- "This is the grid's first point": the condition of the first branch. -/
abbrev condA (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "The first grid coordinate is 0": the condition of the second branch. -/
abbrev condB (i : grid0.Coords) : Prop := k0_cond2 i = 1#1
/-- "The first grid coordinate is 1": the condition of the third branch. -/
abbrev condC (i : grid0.Coords) : Prop := k0_cond3 i = 1#1

theorem hcondA : ∀ t : Fin cfg0.N, condA (grid0.coords t) ↔ t.val = 0 :=
  (by decide +kernel : ∀ t : Fin grid0.N, condA (grid0.coords t) ↔ t.val = 0)
theorem hcondB : ∀ t : Fin cfg0.N, condB (grid0.coords t) ↔ t.val < 25 :=
  (by decide +kernel : ∀ t : Fin grid0.N, condB (grid0.coords t) ↔ t.val < 25)
theorem hcondC : ∀ t : Fin cfg0.N, condC (grid0.coords t) ↔ 25 ≤ t.val :=
  (by decide +kernel : ∀ t : Fin grid0.N, condC (grid0.coords t) ↔ 25 ≤ t.val)

/-! ## Whole loads and whole stores -/

theorem zero2 : (![0, 0] : Fin 2 → ℕ) = fun _ => 0 := funext fun a => by match a with | ⟨0, _⟩ => rfl | ⟨1, _⟩ => rfl
theorem zero3 : (![0, 0, 0] : Fin 3 → ℕ) = fun _ => 0 := funext fun a => by match a with | ⟨0, _⟩ => rfl | ⟨1, _⟩ => rfl | ⟨2, _⟩ => rfl

/-- A load of a whole buffer through the rectangle at offset zero of the buffer's own sizes reads its contents. -/
theorem load_whole {S : Shape} {e : EltTy} (M : Memref sig .tc .vmem S e) (hM : M.IsWhole) {off : Fin S.rank → ℕ}
    (hz : off = fun _ => 0) (inb : ∀ a, off a + S.size a ≤ S.size a) (X : S.Idx → Elt F e) :
    View.readAt (Elt F) M.view (Rect.unit off S.size inb).toLoadRect (hM.unread X) = X := by
  rw [View.readAt_eq_ld, hM.read_unread]; exact View.ld_unit_zero hz inb X

/-- One store through that rectangle leaves its payload, whatever the buffer held. -/
theorem store_whole {S : Shape} {e : EltTy} (M : Memref sig .tc .vmem S e) (f : M.view.ty.Contents (Elt F)) {off : Fin S.rank → ℕ}
    (hz : off = fun _ => 0) (inb : ∀ a, off a + S.size a ≤ S.size a) (w : S.Idx → Elt F e) :
    M.view.read (Elt F) (M.view.writes (Elt F) f [⟨Rect.unit off S.size inb, w⟩]) = w := by
  subst hz; exact View.read_writes_whole M.view f w

/-! ## The strip store -/

/-- The rows the strip store at point `i` writes: 400 whole rows from the row the point computes. -/
abbrev stripRect (i : grid0.Coords) (h : condB i) : Rect S10000x128 :=
  Rect.unit (s := S10000x128) (k0_off1 i) S400x128.size (k0_off1_inb i h)

/-- What a whole [N, 128] buffer reads after the strip `p` is stored at point `i` over contents `X`. -/
def stripStored (M : Memref sig .tc .vmem S10000x128 .f32) (hM : M.IsWhole) (i : grid0.Coords) (h : condB i)
    (X : Vec F S10000x128 .f32) (p : Vec F S400x128 .f32) : Vec F S10000x128 .f32 :=
  M.view.read (Elt F) (M.view.writes (Elt F) (hM.unread X) [⟨stripRect i h, p⟩])

/-! ## The three cases -/

set_option maxHeartbeats 4000000 in
/-- The grid's first point: the hidden features `k0_pay1 x1 x2 x3` are stored into the first scratch (whatever it
    held), read back, and the first strip computed from them is stored into the second scratch over `xs1`; the
    output's buffer is not touched. -/
theorem run_first (c : Dev nD) (E : Set ℕ) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S400x128 .f32) (harg9 : arg9.IsWhole) (arg10 : Memref sig .tc .vmem S10000x128 .f32) (harg10 : arg10.IsWhole) (arg11 : Memref sig .tc .vmem S10000x128 .f32) (harg11 : arg11.IsWhole)
    (hc0 : condA i) (hc1 : condB i) (hc2 : ¬condC i) (x0 : Vec F S1x400x10000 .f32) (x1 : Vec F S10000x128 .f32) (x2 : Vec F S128x128 .f32) (x3 : Vec F S1x128 .f32) (x4 : Vec F S128x128 .f32) (x5 : Vec F S1x128 .f32) (x6 : Vec F S1x1 .f32)
    (X9 : Vec F S400x128 .f32) (xs0 xs1 : Vec F S10000x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare X9 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare X9 ∗ owns (c : Thread nD τ) arg10 fullShare (k0_pay1 x1 x2 x3)
            ∗ owns (c : Thread nD τ) arg11 fullShare (stripStored arg11 harg11 i hc1 xs1 (k0_pay3 x0 (k0_pay1 x1 x2 x3) x6 x4 x5))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HS0]
  · iexists _; isplitr
    swap; · iexact HS0
    ipureintro
    unfold run_first.sl.HS0_1
    rw [load_whole arg3 harg3 zero2, load_whole arg4 harg4 zero2, load_whole arg5 harg5 zero2]
    exact store_whole arg10 _ zero2 _ _
  iexists _; isplitr
  swap; · iexact HS1
  ipureintro
  unfold run_first.sl.v13 run_first.sl.HS0_1
  rw [View.readCov_unit_zero arg10.view zero2, load_whole arg2 harg2 zero3, load_whole arg3 harg3 zero2, load_whole arg4 harg4 zero2,
    load_whole arg5 harg5 zero2, load_whole arg8 harg8 zero2, load_whole arg6 harg6 zero2, load_whole arg7 harg7 zero2]
  rfl

set_option maxHeartbeats 4000000 in
/-- A point of the first grid row other than the first point: the first scratch holds `xs0` and is read, the strip
    computed from it is stored into the second scratch over `xs1`; the output's buffer is not touched. -/
theorem run_mid (c : Dev nD) (E : Set ℕ) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S400x128 .f32) (harg9 : arg9.IsWhole) (arg10 : Memref sig .tc .vmem S10000x128 .f32) (harg10 : arg10.IsWhole) (arg11 : Memref sig .tc .vmem S10000x128 .f32) (harg11 : arg11.IsWhole)
    (hc0 : ¬condA i) (hc1 : condB i) (hc2 : ¬condC i) (x0 : Vec F S1x400x10000 .f32) (x1 : Vec F S10000x128 .f32) (x2 : Vec F S128x128 .f32) (x3 : Vec F S1x128 .f32) (x4 : Vec F S128x128 .f32) (x5 : Vec F S1x128 .f32) (x6 : Vec F S1x1 .f32)
    (X9 : Vec F S400x128 .f32) (xs0 xs1 : Vec F S10000x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare X9 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare X9 ∗ owns (c : Thread nD τ) arg10 fullShare xs0
            ∗ owns (c : Thread nD τ) arg11 fullShare (stripStored arg11 harg11 i hc1 xs1 (k0_pay3 x0 xs0 x6 x4 x5))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HS0]
  · iexists _; isplitr; · ipureintro; exact harg10.read_unread _
    iexact HS0
  iexists _; isplitr
  swap; · iexact HS1
  ipureintro
  rw [load_whole arg2 harg2 zero3, load_whole arg10 harg10 zero2, load_whole arg8 harg8 zero2, load_whole arg6 harg6 zero2,
    load_whole arg7 harg7 zero2]
  rfl

set_option maxHeartbeats 4000000 in
/-- A point of the second grid row: the second scratch holds `xs1` and is read whole; the point's adjacency strip
    times it is stored into the output's buffer, whatever that held. Both scratches keep their contents. -/
theorem run_last (c : Dev nD) (E : Set ℕ) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S400x128 .f32) (harg9 : arg9.IsWhole) (arg10 : Memref sig .tc .vmem S10000x128 .f32) (harg10 : arg10.IsWhole) (arg11 : Memref sig .tc .vmem S10000x128 .f32) (harg11 : arg11.IsWhole)
    (hc0 : ¬condA i) (hc1 : ¬condB i) (hc2 : condC i) (x0 : Vec F S1x400x10000 .f32) (x1 : Vec F S10000x128 .f32) (x2 : Vec F S128x128 .f32) (x3 : Vec F S1x128 .f32) (x4 : Vec F S128x128 .f32) (x5 : Vec F S1x128 .f32) (x6 : Vec F S1x1 .f32)
    (X9 : Vec F S400x128 .f32) (xs0 xs1 : Vec F S10000x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare X9 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay4 x0 xs1) ∗ owns (c : Thread nD τ) arg10 fullShare xs0
            ∗ owns (c : Thread nD τ) arg11 fullShare xs1) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    rw [load_whole arg2 harg2 zero3, load_whole arg11 harg11 zero2]
    exact store_whole arg9 _ zero2 _ _
  isplitl [HS0]
  · iexists _; isplitr; · ipureintro; exact harg10.read_unread _
    iexact HS0
  iexists _; isplitr; · ipureintro; exact harg11.read_unread _
  iexact HS1

end Cert.Kernel.Body

end
-- ==== Proof.BData.lean ====
/-
  The proof data of the one pipeline, the body obligation at every grid point, the run, and the frame.

  Names for what the two scratch buffers hold (all generic in the float instance, as functions of the blocks the
  region's windows stage):
    • `H`       the hidden features  x·W1ᵗ + b1, all N rows, computed at the first grid point and never rewritten;
    • `strip t` the 400 rows  prelu(A_t · H)·W2ᵗ + b2  computed at point t of the first grid row;
    • `full`    the N rows obtained by stacking the strips: row r is row (r mod 400) of strip (r div 400);
    • `upTo n d` a buffer whose rows below 400 n are `full`'s and whose other rows are `d`'s: what the second
      scratch holds after n strip stores if it held `d` when the region was entered.
  Storing strip t over `upTo t d` gives `upTo (t + 1) d` (`stored_upTo`: a row is either under the stored strip,
  where it reads the strip's row, or outside it, where nothing changed), `upTo 0 d = d`, and from n = 25 on
  `upTo n d = full` whatever `d` was: all N = 25 · 400 rows have been stored. So the invariant before point n ≥ 1 is:
  the first scratch at `H`, the second at `upTo n d` for SOME `d`; and at the points of the second grid row the body
  reads `full` and writes  A_t · full  into the output block.
-/
import proofs.«142808_g28707561406990_cont_9to1_1291_10_alg».proof.Proof.BCases
import Idealize.ShloMosaic.Lib.Pipeline.FrameSuffix
import Idealize.ShloMosaic.Lib.WritesUnit
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid, the windows' idle points, the scratch buffers -/

theorem N50 : cfg0.N = 50 := N_0

/-- The grid's first point. -/
abbrev t₀ : Fin cfg0.N := ⟨0, by rw [N50]; omega⟩

/-- The second coordinate of point `t` is `t mod 25`. -/
theorem coord1 : ∀ t : Fin cfg0.N, ((grid0.coords t) 1).val = t.val % 25 :=
  (by decide +kernel : ∀ t : Fin grid0.N, ((grid0.coords t) 1).val = t.val % 25)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The output window is idle on the first grid row, and its block is not written back there; -/
theorem idle7_lo : ∀ t : Fin cfg0.N, t.val < 25 → cfg0.idle 7 (grid0.coords t) = true :=
  (by decide +kernel : ∀ t : Fin grid0.N, t.val < 25 → cfg0.idle 7 (grid0.coords t) = true)
theorem noflush7_lo : ∀ t : Fin cfg0.N, t.val < 25 → (cfg0.win 7).flush t = false :=
  (by decide +kernel : ∀ t : Fin grid0.N, t.val < 25 → win0_7.flush t = false)
/-- it is live on the second, where every point writes its block back. -/
theorem live7_hi : ∀ t : Fin cfg0.N, 25 ≤ t.val → cfg0.idle 7 (grid0.coords t) = false :=
  (by decide +kernel : ∀ t : Fin grid0.N, 25 ≤ t.val → cfg0.idle 7 (grid0.coords t) = false)
theorem flush7_hi : ∀ t : Fin cfg0.N, 25 ≤ t.val → (cfg0.win 7).flush t = true :=
  (by decide +kernel : ∀ t : Fin grid0.N, 25 ≤ t.val → win0_7.flush t = true)

/-- The two scratch operands: whole scoped buffers of the kernel's own. -/
abbrev scM0 : Memref sig .tc .vmem S10000x128 .f32 := Memref.whole cc0_scratch0
abbrev scM1 : Memref sig .tc .vmem S10000x128 .f32 := Memref.whole cc0_scratch1
theorem scM1_whole : scM1.IsWhole := Memref.isWhole_whole _

/-- The class invariant with the two scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the scratch buffers hold -/

/-- The hidden features: the first point's store into the first scratch. -/
def H (c : Dev nD) : Vec F S10000x128 .f32 := k0_pay1 (iblk m c 1 t₀) (iblk m c 2 t₀) (iblk m c 3 t₀)

/-- The strip point `t` stores into the second scratch. -/
def strip (c : Dev nD) (t : Fin cfg0.N) : Vec F S400x128 .f32 :=
  k0_pay3 (iblk m c 0 t) (H m c) (iblk m c 6 t) (iblk m c 4 t) (iblk m c 5 t)

theorem row_pt (y : S10000x128.Idx) : (y 0).val / 400 < cfg0.N := by
  have h : (y 0).val < 10000 := (y 0).isLt
  rw [N50]; omega

/-- The point whose strip holds row `y 0`, and the row's place in that strip. -/
def ptOf (y : S10000x128.Idx) : Fin cfg0.N := ⟨(y 0).val / 400, row_pt y⟩
def locOf (y : S10000x128.Idx) : S400x128.Idx :=
  ix2 (n0 := 400) (n1 := 128) ⟨(y 0).val % 400, Nat.mod_lt _ (by omega)⟩ ⟨(y 1).val, (y 1).isLt⟩

/-- The strips stacked: all N rows. -/
def full (c : Dev nD) : Vec F S10000x128 .f32 := fun y => strip m c (ptOf y) (locOf y)

/-- Rows below `400 n` from the stacked strips, the others from `d`. -/
def upTo (c : Dev nD) (n : ℕ) (d : Vec F S10000x128 .f32) : Vec F S10000x128 .f32 :=
  fun y => if (y 0).val < 400 * n then full m c y else d y

theorem upTo_zero (c : Dev nD) (d : Vec F S10000x128 .f32) : upTo m c 0 d = d := by
  funext y; unfold upTo; rw [if_neg (by omega)]

theorem upTo_full (c : Dev nD) (n : ℕ) (hn : 25 ≤ n) (d : Vec F S10000x128 .f32) : upTo m c n d = full m c := by
  funext y
  have h : (y 0).val < 10000 := (y 0).isLt
  unfold upTo; rw [if_pos (by omega)]

/-- Storing strip `t` over a buffer whose first `t` strips are in place puts the first `t + 1` in place. -/
theorem stored_upTo (c : Dev nD) (t : Fin cfg0.N) (ht : t.val < 25) (h : condB (grid0.coords t)) (d : Vec F S10000x128 .f32) :
    stripStored scM1 scM1_whole (grid0.coords t) h (upTo m c t.val d) (strip m c t) = upTo m c (t.val + 1) d := by
  funext y
  have hy0 : (y 0).val < 10000 := (y 0).isLt
  have hoff : k0_off1 (grid0.coords t) = ![400 * t.val, 0] := by
    rw [k0_off1_eq, coord1 t, Nat.mod_eq_of_lt ht]
  unfold stripStored stripRect
  rw [View.read_writes_cons_rows scM1.view _ (k0_off1_inb _ h) _ [] y hoff (W := 400) rfl rfl]
  split
  · next hr =>
    unfold upTo; rw [if_pos (by omega)]
    unfold full
    have hp : ptOf y = t := Fin.ext (by show (y 0).val / 400 = t.val; omega)
    rw [hp]
    refine congrArg (strip m c t) (funext fun a => ?_)
    match a with
    | ⟨0, _⟩ => exact Fin.ext (by show (y 0).val - 400 * t.val = (y 0).val % 400; omega)
    | ⟨1, _⟩ => exact Fin.ext (by show (y 1).val - 0 = (y 1).val; omega)
  · next hr =>
    rw [View.writes_nil, scM1_whole.read_unread]
    unfold upTo
    by_cases h1 : (y 0).val < 400 * t.val
    · rw [if_pos h1, if_pos (by omega)]
    · rw [if_neg h1, if_neg (by omega)]

/-! ## The invariant and the proof data -/

/-- The region invariant before position `n`: at the start the class's (every scratch at anything); afterwards the
    first scratch at the hidden features and the second with its first `n` strips in place over some contents. -/
def Phi (c : Dev nD) : ℕ → sProp 𝕄
  | 0 => Pipeline.ΦA spec0 c
  | n + 1 => iprop(iprop(owns (c : Thread nD τ) scM0 fullShare (H m c) ∗ (∃ d, owns (c : Thread nD τ) scM1 fullShare (upTo m c (n + 1) d))) ∗ (∃ r, prngReg c r))

theorem Phi_pos (c : Dev nD) (n : ℕ) (hn : n ≠ 0) :
    Phi m c n = iprop(iprop(owns (c : Thread nD τ) scM0 fullShare (H m c) ∗ (∃ d, owns (c : Thread nD τ) scM1 fullShare (upTo m c n d))) ∗ (∃ r, prngReg c r)) := by
  cases n with
  | zero => exact absurd rfl hn
  | succ n => rfl

/-- The proof data of the one pipeline on core `c`: the arrays as the region finds them; after the body at point `t`
    each input's buffer at its block and the output's at the point's adjacency strip times the stacked strips; the
    invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay4 (iblk m c 0 t) (full m c)
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = k0_pay4 (iblk m c 0 t) (full m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The inputs' posts: no input window is ever idle, so each is handed back at its block. -/
theorem leaves_in (c : Dev nD) (t : Fin cfg0.N) :
    (dats m 0 c).leavesExact 0 t = owns (c : Thread nD τ) (st0_0 t) fullShare (iblk m c 0 t)
    ∧ (dats m 0 c).leavesExact 1 t = owns (c : Thread nD τ) (st0_1 t) fullShare (iblk m c 1 t)
    ∧ (dats m 0 c).leavesExact 2 t = owns (c : Thread nD τ) (st0_2 t) fullShare (iblk m c 2 t)
    ∧ (dats m 0 c).leavesExact 3 t = owns (c : Thread nD τ) (st0_3 t) fullShare (iblk m c 3 t)
    ∧ (dats m 0 c).leavesExact 4 t = owns (c : Thread nD τ) (st0_4 t) fullShare (iblk m c 4 t)
    ∧ (dats m 0 c).leavesExact 5 t = owns (c : Thread nD τ) (st0_5 t) fullShare (iblk m c 5 t)
    ∧ (dats m 0 c).leavesExact 6 t = owns (c : Thread nD τ) (st0_6 t) fullShare (iblk m c 6 t) :=
  ⟨by unfold Dat.leavesExact; rw [live0 t, after0],
   by unfold Dat.leavesExact; rw [live1 t, after1],
   by unfold Dat.leavesExact; rw [live2 t, after2],
   by unfold Dat.leavesExact; rw [live3 t, after3],
   by unfold Dat.leavesExact; rw [live4 t, after4],
   by unfold Dat.leavesExact; rw [live5 t, after5],
   by unfold Dat.leavesExact; rw [live6 t, after6]⟩

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  obtain ⟨l0, l1, l2, l3, l4, l5, l6⟩ := leaves_in m c t
  rw [l0, l1, l2, l3, l4, l5, l6]
  rw [show (dats m 0 c).owesAt () t.succ = (dats m 0 c).owesAt () t.castSucc from rfl,
    show (dats m 0 c).Φ t.succ = Phi m c (t.val + 1) from rfl, show (dats m 0 c).Φ t.castSucc = Phi m c t.val from rfl,
    Phi_pos m c (t.val + 1) (by omega)]
  have hN : t.val < 50 := lt_of_lt_of_eq t.isLt N50
  by_cases hz : t.val = 0
  · -- the grid's first point
    have hA : condA (grid0.coords t) := (hcondA t).mpr hz
    have hB : condB (grid0.coords t) := (hcondB t).mpr (by omega)
    have hC : ¬condC (grid0.coords t) := fun h => by have := (hcondC t).mp h; omega
    rw [(dats m 0 c).leavesExact_idle 7 t (idle7_lo t (by omega)) (noflush7_lo t (by omega))]
    obtain rfl : t = t₀ := Fin.ext hz
    rw [show Phi m c (t₀ : Fin cfg0.N).val = Pipeline.ΦA spec0 c from rfl, PhiA_eq]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c Set.univ (grid0.coords t₀) _ _ _ _ _ _ _ _ _ _ _ _ _ _ _ _ _ _ _ _ hA hB hC (iblk m c 0 t₀) (iblk m c 1 t₀) (iblk m c 2 t₀) (iblk m c 3 t₀) (iblk m c 4 t₀) (iblk m c 5 t₀) (iblk m c 6 t₀) ((dats m 0 c).before 7 t₀ d7) e0 e1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · unfold H; iexact HS0
        iexists e1
        have e := stored_upTo m c t₀ (by show (0 : ℕ) < 25; omega) hB e1
        rw [show (t₀ : Fin cfg0.N).val = 0 from rfl, upTo_zero] at e
        rw [← e]; unfold strip H; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · by_cases h25 : t.val < 25
    · -- the other points of the first grid row
      have hA : ¬condA (grid0.coords t) := fun h => hz ((hcondA t).mp h)
      have hB : condB (grid0.coords t) := (hcondB t).mpr h25
      have hC : ¬condC (grid0.coords t) := fun h => by have := (hcondC t).mp h; omega
      rw [(dats m 0 c).leavesExact_idle 7 t (idle7_lo t h25) (noflush7_lo t h25), Phi_pos m c t.val hz]
      iintro ⟨⟨⟨HS0, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c Set.univ (grid0.coords t) _ _ _ _ _ _ _ _ _ _ _ _ _ _ _ _ _ _ _ _ hA hB hC (iblk m c 0 t) (iblk m c 1 t) (iblk m c 2 t) (iblk m c 3 t) (iblk m c 4 t) (iblk m c 5 t) (iblk m c 6 t) ((dats m 0 c).before 7 t d7) (H m c) (upTo m c t.val e1) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexists e1
          rw [← stored_upTo m c t h25 hB e1]; unfold strip; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7
    · -- the points of the second grid row
      have h25' : 25 ≤ t.val := by omega
      have hA : ¬condA (grid0.coords t) := fun h => hz ((hcondA t).mp h)
      have hB : ¬condB (grid0.coords t) := fun h => h25 ((hcondB t).mp h)
      have hC : condC (grid0.coords t) := (hcondC t).mpr h25'
      rw [show (dats m 0 c).leavesExact 7 t = owns (c : Thread nD τ) (st0_7 t) fullShare ((dats m 0 c).after 7 t) from by
        unfold Dat.leavesExact; rw [live7_hi t h25'], after7, Phi_pos m c t.val hz]
      simp only [upTo_full m c t.val h25', upTo_full m c (t.val + 1) (by omega)]
      iintro ⟨⟨⟨HS0, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c Set.univ (grid0.coords t) _ _ _ _ _ _ _ _ _ _ _ _ _ _ _ _ _ _ _ _ hA hB hC (iblk m c 0 t) (iblk m c 1 t) (iblk m c 2 t) (iblk m c 3 t) (iblk m c 4 t) (iblk m c 5 t) (iblk m c 6 t) ((dats m 0 c).before 7 t d7) (H m c) (full m c) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexists e1; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  first | done | exact Idealize.SL.BI.Entails.refl _

/-- After the last point the invariant gives the class's back: the scratch buffers' named contents are forgotten. -/
theorem hout (c : Dev nD) : (dats m 0 c).Φ (Fin.last cfg0.N) ⊢ Pipeline.ΦA spec0 c := by
  rw [show (dats m 0 c).Φ (Fin.last cfg0.N) = Phi m c cfg0.N from rfl, Phi_pos m c cfg0.N (by rw [N50]; omega), PhiA_eq]
  iintro ⟨⟨HS0, ⟨%d, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates, and every final state has every array of the pipeline
    at what the library computes from the proof data (the output array overwritten block by block by what the body
    left at each write-back), every other unscoped buffer at the contents after the host operations that follow the
    region. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.KCases.lean ====
/-
  The kernel body, case by case, with every buffer's contents NAMED.

  The grid has 2 × 25 points. At a point (g, j) the body
    • (g, j) = (0, 0) only: stores  H = x·W1ᵗ + b1  (all N rows) into the first scratch;
    • g = 0: reads H back, forms the strip  S_j = prelu(A_j · H)·W2ᵗ + b2  of 400 rows from the point's
      adjacency strip A_j, and stores it into rows [400 j, 400 j + 400) of the second scratch, the other
      rows of that scratch keeping what they held;
    • g = 1: reads the second scratch whole, and stores  A_j · (second scratch)  into the output block.
  Three cases occur: the first point (first and second bullet), the other points of g = 0 (second bullet), the
  points of g = 1 (third bullet). Each is run symbolically below, on whole staging buffers at named contents, to a
  postcondition naming what every buffer then holds; what the second scratch holds after a strip store is stated
  as the read-back of that store over its previous contents (`stripStored`) and read at an index in the next module.
  Everything here is generic in the float instance.
-/
import proofs.«142808_g28707561406990_cont_9to1_1291_10_alg».proof.Proof.Gen.KernelIdeal.Frame
import proofs.«142808_g28707561406990_cont_9to1_1291_10_alg».proof.Proof.Gen.KernelIdeal.Skeleton
import Idealize.ShloMosaic.Lib.Pipeline.Frame
import Idealize.ShloMosaic.Lib.Exec.Geometry
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The body's branch conditions, decided over the grid -/

/-- "This is the grid's first point": the condition of the first branch. -/
abbrev condA (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "The first grid coordinate is 0": the condition of the second branch. -/
abbrev condB (i : grid0.Coords) : Prop := k0_cond2 i = 1#1
/-- "The first grid coordinate is 1": the condition of the third branch. -/
abbrev condC (i : grid0.Coords) : Prop := k0_cond3 i = 1#1

theorem hcondA : ∀ t : Fin cfg0.N, condA (grid0.coords t) ↔ t.val = 0 :=
  (by decide +kernel : ∀ t : Fin grid0.N, condA (grid0.coords t) ↔ t.val = 0)
theorem hcondB : ∀ t : Fin cfg0.N, condB (grid0.coords t) ↔ t.val < 25 :=
  (by decide +kernel : ∀ t : Fin grid0.N, condB (grid0.coords t) ↔ t.val < 25)
theorem hcondC : ∀ t : Fin cfg0.N, condC (grid0.coords t) ↔ 25 ≤ t.val :=
  (by decide +kernel : ∀ t : Fin grid0.N, condC (grid0.coords t) ↔ 25 ≤ t.val)

/-! ## Whole loads and whole stores -/

theorem zero2 : (![0, 0] : Fin 2 → ℕ) = fun _ => 0 := funext fun a => by match a with | ⟨0, _⟩ => rfl | ⟨1, _⟩ => rfl
theorem zero3 : (![0, 0, 0] : Fin 3 → ℕ) = fun _ => 0 := funext fun a => by match a with | ⟨0, _⟩ => rfl | ⟨1, _⟩ => rfl | ⟨2, _⟩ => rfl

/-- A load of a whole buffer through the rectangle at offset zero of the buffer's own sizes reads its contents. -/
theorem load_whole {S : Shape} {e : EltTy} (M : Memref sig .tc .vmem S e) (hM : M.IsWhole) {off : Fin S.rank → ℕ}
    (hz : off = fun _ => 0) (inb : ∀ a, off a + S.size a ≤ S.size a) (X : S.Idx → Elt F e) :
    View.readAt (Elt F) M.view (Rect.unit off S.size inb).toLoadRect (hM.unread X) = X := by
  rw [View.readAt_eq_ld, hM.read_unread]; exact View.ld_unit_zero hz inb X

/-- One store through that rectangle leaves its payload, whatever the buffer held. -/
theorem store_whole {S : Shape} {e : EltTy} (M : Memref sig .tc .vmem S e) (f : M.view.ty.Contents (Elt F)) {off : Fin S.rank → ℕ}
    (hz : off = fun _ => 0) (inb : ∀ a, off a + S.size a ≤ S.size a) (w : S.Idx → Elt F e) :
    M.view.read (Elt F) (M.view.writes (Elt F) f [⟨Rect.unit off S.size inb, w⟩]) = w := by
  subst hz; exact View.read_writes_whole M.view f w

/-! ## The strip store -/

/-- The rows the strip store at point `i` writes: 400 whole rows from the row the point computes. -/
abbrev stripRect (i : grid0.Coords) (h : condB i) : Rect S10000x128 :=
  Rect.unit (s := S10000x128) (k0_off1 i) S400x128.size (k0_off1_inb i h)

/-- What a whole [N, 128] buffer reads after the strip `p` is stored at point `i` over contents `X`. -/
def stripStored (M : Memref sig .tc .vmem S10000x128 .f32) (hM : M.IsWhole) (i : grid0.Coords) (h : condB i)
    (X : Vec F S10000x128 .f32) (p : Vec F S400x128 .f32) : Vec F S10000x128 .f32 :=
  M.view.read (Elt F) (M.view.writes (Elt F) (hM.unread X) [⟨stripRect i h, p⟩])

/-! ## The three cases -/

set_option maxHeartbeats 4000000 in
/-- The grid's first point: the hidden features `k0_pay1 x1 x2 x3` are stored into the first scratch (whatever it
    held), read back, and the first strip computed from them is stored into the second scratch over `xs1`; the
    output's buffer is not touched. -/
theorem run_first (c : Dev nD) (E : Set ℕ) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S400x128 .f32) (harg9 : arg9.IsWhole) (arg10 : Memref sig .tc .vmem S10000x128 .f32) (harg10 : arg10.IsWhole) (arg11 : Memref sig .tc .vmem S10000x128 .f32) (harg11 : arg11.IsWhole)
    (hc0 : condA i) (hc1 : condB i) (hc2 : ¬condC i) (x0 : Vec F S1x400x10000 .f32) (x1 : Vec F S10000x128 .f32) (x2 : Vec F S128x128 .f32) (x3 : Vec F S1x128 .f32) (x4 : Vec F S128x128 .f32) (x5 : Vec F S1x128 .f32) (x6 : Vec F S1x1 .f32)
    (X9 : Vec F S400x128 .f32) (xs0 xs1 : Vec F S10000x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare X9 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare X9 ∗ owns (c : Thread nD τ) arg10 fullShare (k0_pay1 x1 x2 x3)
            ∗ owns (c : Thread nD τ) arg11 fullShare (stripStored arg11 harg11 i hc1 xs1 (k0_pay3 x0 (k0_pay1 x1 x2 x3) x6 x4 x5))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HS0]
  · iexists _; isplitr
    swap; · iexact HS0
    ipureintro
    unfold run_first.sl.HS0_1
    rw [load_whole arg3 harg3 zero2, load_whole arg4 harg4 zero2, load_whole arg5 harg5 zero2]
    exact store_whole arg10 _ zero2 _ _
  iexists _; isplitr
  swap; · iexact HS1
  ipureintro
  unfold run_first.sl.v13 run_first.sl.HS0_1
  rw [View.readCov_unit_zero arg10.view zero2, load_whole arg2 harg2 zero3, load_whole arg3 harg3 zero2, load_whole arg4 harg4 zero2,
    load_whole arg5 harg5 zero2, load_whole arg8 harg8 zero2, load_whole arg6 harg6 zero2, load_whole arg7 harg7 zero2]
  rfl

set_option maxHeartbeats 4000000 in
/-- A point of the first grid row other than the first point: the first scratch holds `xs0` and is read, the strip
    computed from it is stored into the second scratch over `xs1`; the output's buffer is not touched. -/
theorem run_mid (c : Dev nD) (E : Set ℕ) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S400x128 .f32) (harg9 : arg9.IsWhole) (arg10 : Memref sig .tc .vmem S10000x128 .f32) (harg10 : arg10.IsWhole) (arg11 : Memref sig .tc .vmem S10000x128 .f32) (harg11 : arg11.IsWhole)
    (hc0 : ¬condA i) (hc1 : condB i) (hc2 : ¬condC i) (x0 : Vec F S1x400x10000 .f32) (x1 : Vec F S10000x128 .f32) (x2 : Vec F S128x128 .f32) (x3 : Vec F S1x128 .f32) (x4 : Vec F S128x128 .f32) (x5 : Vec F S1x128 .f32) (x6 : Vec F S1x1 .f32)
    (X9 : Vec F S400x128 .f32) (xs0 xs1 : Vec F S10000x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare X9 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare X9 ∗ owns (c : Thread nD τ) arg10 fullShare xs0
            ∗ owns (c : Thread nD τ) arg11 fullShare (stripStored arg11 harg11 i hc1 xs1 (k0_pay3 x0 xs0 x6 x4 x5))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HS0]
  · iexists _; isplitr; · ipureintro; exact harg10.read_unread _
    iexact HS0
  iexists _; isplitr
  swap; · iexact HS1
  ipureintro
  rw [load_whole arg2 harg2 zero3, load_whole arg10 harg10 zero2, load_whole arg8 harg8 zero2, load_whole arg6 harg6 zero2,
    load_whole arg7 harg7 zero2]
  rfl

set_option maxHeartbeats 4000000 in
/-- A point of the second grid row: the second scratch holds `xs1` and is read whole; the point's adjacency strip
    times it is stored into the output's buffer, whatever that held. Both scratches keep their contents. -/
theorem run_last (c : Dev nD) (E : Set ℕ) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S400x128 .f32) (harg9 : arg9.IsWhole) (arg10 : Memref sig .tc .vmem S10000x128 .f32) (harg10 : arg10.IsWhole) (arg11 : Memref sig .tc .vmem S10000x128 .f32) (harg11 : arg11.IsWhole)
    (hc0 : ¬condA i) (hc1 : ¬condB i) (hc2 : condC i) (x0 : Vec F S1x400x10000 .f32) (x1 : Vec F S10000x128 .f32) (x2 : Vec F S128x128 .f32) (x3 : Vec F S1x128 .f32) (x4 : Vec F S128x128 .f32) (x5 : Vec F S1x128 .f32) (x6 : Vec F S1x1 .f32)
    (X9 : Vec F S400x128 .f32) (xs0 xs1 : Vec F S10000x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare X9 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay4 x0 xs1) ∗ owns (c : Thread nD τ) arg10 fullShare xs0
            ∗ owns (c : Thread nD τ) arg11 fullShare xs1) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    rw [load_whole arg2 harg2 zero3, load_whole arg11 harg11 zero2]
    exact store_whole arg9 _ zero2 _ _
  isplitl [HS0]
  · iexists _; isplitr; · ipureintro; exact harg10.read_unread _
    iexact HS0
  iexists _; isplitr; · ipureintro; exact harg11.read_unread _
  iexact HS1

end Cert.KernelIdeal.Body

end
-- ==== Proof.KData.lean ====
/-
  The proof data of the one pipeline, the body obligation at every grid point, the run, and the frame.

  Names for what the two scratch buffers hold (all generic in the float instance, as functions of the blocks the
  region's windows stage):
    • `H`       the hidden features  x·W1ᵗ + b1, all N rows, computed at the first grid point and never rewritten;
    • `strip t` the 400 rows  prelu(A_t · H)·W2ᵗ + b2  computed at point t of the first grid row;
    • `full`    the N rows obtained by stacking the strips: row r is row (r mod 400) of strip (r div 400);
    • `upTo n d` a buffer whose rows below 400 n are `full`'s and whose other rows are `d`'s: what the second
      scratch holds after n strip stores if it held `d` when the region was entered.
  Storing strip t over `upTo t d` gives `upTo (t + 1) d` (`stored_upTo`: a row is either under the stored strip,
  where it reads the strip's row, or outside it, where nothing changed), `upTo 0 d = d`, and from n = 25 on
  `upTo n d = full` whatever `d` was: all N = 25 · 400 rows have been stored. So the invariant before point n ≥ 1 is:
  the first scratch at `H`, the second at `upTo n d` for SOME `d`; and at the points of the second grid row the body
  reads `full` and writes  A_t · full  into the output block.
-/
import proofs.«142808_g28707561406990_cont_9to1_1291_10_alg».proof.Proof.KCases
import Idealize.ShloMosaic.Lib.Pipeline.FrameSuffix
import Idealize.ShloMosaic.Lib.WritesUnit
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid, the windows' idle points, the scratch buffers -/

theorem N50 : cfg0.N = 50 := N_0

/-- The grid's first point. -/
abbrev t₀ : Fin cfg0.N := ⟨0, by rw [N50]; omega⟩

/-- The second coordinate of point `t` is `t mod 25`. -/
theorem coord1 : ∀ t : Fin cfg0.N, ((grid0.coords t) 1).val = t.val % 25 :=
  (by decide +kernel : ∀ t : Fin grid0.N, ((grid0.coords t) 1).val = t.val % 25)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The output window is idle on the first grid row, and its block is not written back there; -/
theorem idle7_lo : ∀ t : Fin cfg0.N, t.val < 25 → cfg0.idle 7 (grid0.coords t) = true :=
  (by decide +kernel : ∀ t : Fin grid0.N, t.val < 25 → cfg0.idle 7 (grid0.coords t) = true)
theorem noflush7_lo : ∀ t : Fin cfg0.N, t.val < 25 → (cfg0.win 7).flush t = false :=
  (by decide +kernel : ∀ t : Fin grid0.N, t.val < 25 → win0_7.flush t = false)
/-- it is live on the second, where every point writes its block back. -/
theorem live7_hi : ∀ t : Fin cfg0.N, 25 ≤ t.val → cfg0.idle 7 (grid0.coords t) = false :=
  (by decide +kernel : ∀ t : Fin grid0.N, 25 ≤ t.val → cfg0.idle 7 (grid0.coords t) = false)
theorem flush7_hi : ∀ t : Fin cfg0.N, 25 ≤ t.val → (cfg0.win 7).flush t = true :=
  (by decide +kernel : ∀ t : Fin grid0.N, 25 ≤ t.val → win0_7.flush t = true)

/-- The two scratch operands: whole scoped buffers of the kernel's own. -/
abbrev scM0 : Memref sig .tc .vmem S10000x128 .f32 := Memref.whole cc0_scratch0
abbrev scM1 : Memref sig .tc .vmem S10000x128 .f32 := Memref.whole cc0_scratch1
theorem scM1_whole : scM1.IsWhole := Memref.isWhole_whole _

/-- The class invariant with the two scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the scratch buffers hold -/

/-- The hidden features: the first point's store into the first scratch. -/
def H (c : Dev nD) : Vec F S10000x128 .f32 := k0_pay1 (iblk m c 1 t₀) (iblk m c 2 t₀) (iblk m c 3 t₀)

/-- The strip point `t` stores into the second scratch. -/
def strip (c : Dev nD) (t : Fin cfg0.N) : Vec F S400x128 .f32 :=
  k0_pay3 (iblk m c 0 t) (H m c) (iblk m c 6 t) (iblk m c 4 t) (iblk m c 5 t)

theorem row_pt (y : S10000x128.Idx) : (y 0).val / 400 < cfg0.N := by
  have h : (y 0).val < 10000 := (y 0).isLt
  rw [N50]; omega

/-- The point whose strip holds row `y 0`, and the row's place in that strip. -/
def ptOf (y : S10000x128.Idx) : Fin cfg0.N := ⟨(y 0).val / 400, row_pt y⟩
def locOf (y : S10000x128.Idx) : S400x128.Idx :=
  ix2 (n0 := 400) (n1 := 128) ⟨(y 0).val % 400, Nat.mod_lt _ (by omega)⟩ ⟨(y 1).val, (y 1).isLt⟩

/-- The strips stacked: all N rows. -/
def full (c : Dev nD) : Vec F S10000x128 .f32 := fun y => strip m c (ptOf y) (locOf y)

/-- Rows below `400 n` from the stacked strips, the others from `d`. -/
def upTo (c : Dev nD) (n : ℕ) (d : Vec F S10000x128 .f32) : Vec F S10000x128 .f32 :=
  fun y => if (y 0).val < 400 * n then full m c y else d y

theorem upTo_zero (c : Dev nD) (d : Vec F S10000x128 .f32) : upTo m c 0 d = d := by
  funext y; unfold upTo; rw [if_neg (by omega)]

theorem upTo_full (c : Dev nD) (n : ℕ) (hn : 25 ≤ n) (d : Vec F S10000x128 .f32) : upTo m c n d = full m c := by
  funext y
  have h : (y 0).val < 10000 := (y 0).isLt
  unfold upTo; rw [if_pos (by omega)]

/-- Storing strip `t` over a buffer whose first `t` strips are in place puts the first `t + 1` in place. -/
theorem stored_upTo (c : Dev nD) (t : Fin cfg0.N) (ht : t.val < 25) (h : condB (grid0.coords t)) (d : Vec F S10000x128 .f32) :
    stripStored scM1 scM1_whole (grid0.coords t) h (upTo m c t.val d) (strip m c t) = upTo m c (t.val + 1) d := by
  funext y
  have hy0 : (y 0).val < 10000 := (y 0).isLt
  have hoff : k0_off1 (grid0.coords t) = ![400 * t.val, 0] := by
    rw [k0_off1_eq, coord1 t, Nat.mod_eq_of_lt ht]
  unfold stripStored stripRect
  rw [View.read_writes_cons_rows scM1.view _ (k0_off1_inb _ h) _ [] y hoff (W := 400) rfl rfl]
  split
  · next hr =>
    unfold upTo; rw [if_pos (by omega)]
    unfold full
    have hp : ptOf y = t := Fin.ext (by show (y 0).val / 400 = t.val; omega)
    rw [hp]
    refine congrArg (strip m c t) (funext fun a => ?_)
    match a with
    | ⟨0, _⟩ => exact Fin.ext (by show (y 0).val - 400 * t.val = (y 0).val % 400; omega)
    | ⟨1, _⟩ => exact Fin.ext (by show (y 1).val - 0 = (y 1).val; omega)
  · next hr =>
    rw [View.writes_nil, scM1_whole.read_unread]
    unfold upTo
    by_cases h1 : (y 0).val < 400 * t.val
    · rw [if_pos h1, if_pos (by omega)]
    · rw [if_neg h1, if_neg (by omega)]

/-! ## The invariant and the proof data -/

/-- The region invariant before position `n`: at the start the class's (every scratch at anything); afterwards the
    first scratch at the hidden features and the second with its first `n` strips in place over some contents. -/
def Phi (c : Dev nD) : ℕ → sProp 𝕄
  | 0 => Pipeline.ΦA spec0 c
  | n + 1 => iprop(iprop(owns (c : Thread nD τ) scM0 fullShare (H m c) ∗ (∃ d, owns (c : Thread nD τ) scM1 fullShare (upTo m c (n + 1) d))) ∗ (∃ r, prngReg c r))

theorem Phi_pos (c : Dev nD) (n : ℕ) (hn : n ≠ 0) :
    Phi m c n = iprop(iprop(owns (c : Thread nD τ) scM0 fullShare (H m c) ∗ (∃ d, owns (c : Thread nD τ) scM1 fullShare (upTo m c n d))) ∗ (∃ r, prngReg c r)) := by
  cases n with
  | zero => exact absurd rfl hn
  | succ n => rfl

/-- The proof data of the one pipeline on core `c`: the arrays as the region finds them; after the body at point `t`
    each input's buffer at its block and the output's at the point's adjacency strip times the stacked strips; the
    invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay4 (iblk m c 0 t) (full m c)
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = k0_pay4 (iblk m c 0 t) (full m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The inputs' posts: no input window is ever idle, so each is handed back at its block. -/
theorem leaves_in (c : Dev nD) (t : Fin cfg0.N) :
    (dats m 0 c).leavesExact 0 t = owns (c : Thread nD τ) (st0_0 t) fullShare (iblk m c 0 t)
    ∧ (dats m 0 c).leavesExact 1 t = owns (c : Thread nD τ) (st0_1 t) fullShare (iblk m c 1 t)
    ∧ (dats m 0 c).leavesExact 2 t = owns (c : Thread nD τ) (st0_2 t) fullShare (iblk m c 2 t)
    ∧ (dats m 0 c).leavesExact 3 t = owns (c : Thread nD τ) (st0_3 t) fullShare (iblk m c 3 t)
    ∧ (dats m 0 c).leavesExact 4 t = owns (c : Thread nD τ) (st0_4 t) fullShare (iblk m c 4 t)
    ∧ (dats m 0 c).leavesExact 5 t = owns (c : Thread nD τ) (st0_5 t) fullShare (iblk m c 5 t)
    ∧ (dats m 0 c).leavesExact 6 t = owns (c : Thread nD τ) (st0_6 t) fullShare (iblk m c 6 t) :=
  ⟨by unfold Dat.leavesExact; rw [live0 t, after0],
   by unfold Dat.leavesExact; rw [live1 t, after1],
   by unfold Dat.leavesExact; rw [live2 t, after2],
   by unfold Dat.leavesExact; rw [live3 t, after3],
   by unfold Dat.leavesExact; rw [live4 t, after4],
   by unfold Dat.leavesExact; rw [live5 t, after5],
   by unfold Dat.leavesExact; rw [live6 t, after6]⟩

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  obtain ⟨l0, l1, l2, l3, l4, l5, l6⟩ := leaves_in m c t
  rw [l0, l1, l2, l3, l4, l5, l6]
  rw [show (dats m 0 c).owesAt () t.succ = (dats m 0 c).owesAt () t.castSucc from rfl,
    show (dats m 0 c).Φ t.succ = Phi m c (t.val + 1) from rfl, show (dats m 0 c).Φ t.castSucc = Phi m c t.val from rfl,
    Phi_pos m c (t.val + 1) (by omega)]
  have hN : t.val < 50 := lt_of_lt_of_eq t.isLt N50
  by_cases hz : t.val = 0
  · -- the grid's first point
    have hA : condA (grid0.coords t) := (hcondA t).mpr hz
    have hB : condB (grid0.coords t) := (hcondB t).mpr (by omega)
    have hC : ¬condC (grid0.coords t) := fun h => by have := (hcondC t).mp h; omega
    rw [(dats m 0 c).leavesExact_idle 7 t (idle7_lo t (by omega)) (noflush7_lo t (by omega))]
    obtain rfl : t = t₀ := Fin.ext hz
    rw [show Phi m c (t₀ : Fin cfg0.N).val = Pipeline.ΦA spec0 c from rfl, PhiA_eq]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c Set.univ (grid0.coords t₀) _ _ _ _ _ _ _ _ _ _ _ _ _ _ _ _ _ _ _ _ hA hB hC (iblk m c 0 t₀) (iblk m c 1 t₀) (iblk m c 2 t₀) (iblk m c 3 t₀) (iblk m c 4 t₀) (iblk m c 5 t₀) (iblk m c 6 t₀) ((dats m 0 c).before 7 t₀ d7) e0 e1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · unfold H; iexact HS0
        iexists e1
        have e := stored_upTo m c t₀ (by show (0 : ℕ) < 25; omega) hB e1
        rw [show (t₀ : Fin cfg0.N).val = 0 from rfl, upTo_zero] at e
        rw [← e]; unfold strip H; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · by_cases h25 : t.val < 25
    · -- the other points of the first grid row
      have hA : ¬condA (grid0.coords t) := fun h => hz ((hcondA t).mp h)
      have hB : condB (grid0.coords t) := (hcondB t).mpr h25
      have hC : ¬condC (grid0.coords t) := fun h => by have := (hcondC t).mp h; omega
      rw [(dats m 0 c).leavesExact_idle 7 t (idle7_lo t h25) (noflush7_lo t h25), Phi_pos m c t.val hz]
      iintro ⟨⟨⟨HS0, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_mid c Set.univ (grid0.coords t) _ _ _ _ _ _ _ _ _ _ _ _ _ _ _ _ _ _ _ _ hA hB hC (iblk m c 0 t) (iblk m c 1 t) (iblk m c 2 t) (iblk m c 3 t) (iblk m c 4 t) (iblk m c 5 t) (iblk m c 6 t) ((dats m 0 c).before 7 t d7) (H m c) (upTo m c t.val e1) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexists e1
          rw [← stored_upTo m c t h25 hB e1]; unfold strip; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7
    · -- the points of the second grid row
      have h25' : 25 ≤ t.val := by omega
      have hA : ¬condA (grid0.coords t) := fun h => hz ((hcondA t).mp h)
      have hB : ¬condB (grid0.coords t) := fun h => h25 ((hcondB t).mp h)
      have hC : condC (grid0.coords t) := (hcondC t).mpr h25'
      rw [show (dats m 0 c).leavesExact 7 t = owns (c : Thread nD τ) (st0_7 t) fullShare ((dats m 0 c).after 7 t) from by
        unfold Dat.leavesExact; rw [live7_hi t h25'], after7, Phi_pos m c t.val hz]
      simp only [upTo_full m c t.val h25', upTo_full m c (t.val + 1) (by omega)]
      iintro ⟨⟨⟨HS0, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c Set.univ (grid0.coords t) _ _ _ _ _ _ _ _ _ _ _ _ _ _ _ _ _ _ _ _ hA hB hC (iblk m c 0 t) (iblk m c 1 t) (iblk m c 2 t) (iblk m c 3 t) (iblk m c 4 t) (iblk m c 5 t) (iblk m c 6 t) ((dats m 0 c).before 7 t d7) (H m c) (full m c) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexists e1; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  first | done | exact Idealize.SL.BI.Entails.refl _

/-- After the last point the invariant gives the class's back: the scratch buffers' named contents are forgotten. -/
theorem hout (c : Dev nD) : (dats m 0 c).Φ (Fin.last cfg0.N) ⊢ Pipeline.ΦA spec0 c := by
  rw [show (dats m 0 c).Φ (Fin.last cfg0.N) = Phi m c cfg0.N from rfl, Phi_pos m c cfg0.N (by rw [N50]; omega), PhiA_eq]
  iintro ⟨⟨HS0, ⟨%d, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates, and every final state has every array of the pipeline
    at what the library computes from the proof data (the output array overwritten block by block by what the body
    left at each write-back), every other unscoped buffer at the contents after the host operations that follow the
    region. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.Spec.lean ====
/-
  The graph-convolution layer as ONE function of the argument arrays, index by index, over the extended reals.

  With features `x : [1, N, 128]`, a dense adjacency `adj : [1, N, N]` (N = 10000), weights `W1, W2 : [128, 128]`
  (stored output-feature first), biases `b1, b2 : [128]` and a scalar slope `a`:

    hid  n h = (Σ f, x[0,n,f] · W1[h,f]) + b1[h]                      the first linear layer
    agg  n h = Σ k, adj[0,n,k] · hid k h                               the first propagation
    act  n h = max (agg n h) 0 + a · min (agg n h) 0                    the parametric ReLU
    lin  n h = (Σ j, act n j · W2[h,j]) + b2[h]                        the second linear layer
    out  n h = Σ k, adj[0,n,k] · lin k h                               the second propagation

  Every sum is a finite sum in the commutative monoid of the extended reals, and the two programs this certificate
  compares nest these sums in the same way, so no law beyond re-indexing a sum is ever needed: in particular no
  distributivity, hence no finiteness of the inputs.
-/
import Idealize.ShloMosaic.PureOps.Ideal
import Idealize.ShloMosaic.Lib.ValueIdx

noncomputable section

open scoped BigOperators

namespace Cert.Spec

open Idealize.ShloMosaic Idealize.ShloMosaic.ValueIdx

/-- The argument arrays' types at the ideal instance. -/
abbrev Feat := (⟨⟨3, ![1, 10000, 128]⟩, .f32⟩ : BufTy).Contents (Elt Ideal)
abbrev Adj := (⟨⟨3, ![1, 10000, 10000]⟩, .f32⟩ : BufTy).Contents (Elt Ideal)
abbrev Wt := (⟨⟨2, ![128, 128]⟩, .f32⟩ : BufTy).Contents (Elt Ideal)
abbrev Bias := (⟨⟨1, ![128]⟩, .f32⟩ : BufTy).Contents (Elt Ideal)
abbrev Slope := (⟨⟨0, ![]⟩, .f32⟩ : BufTy).Contents (Elt Ideal)

/-- The float zero both programs spell as the word `0x00000000`. -/
abbrev zero : Ideal .f32 := FloatOps.ofBits (F := Ideal) .f32 0x00000000#32

variable (x : Feat) (adj : Adj) (W1 : Wt) (b1 : Bias) (W2 : Wt) (b2 : Bias) (a : Slope)

/-- The first linear layer: node `n`, hidden feature `h`. -/
def hid (n : Fin 10000) (h : Fin 128) : Ideal .f32 :=
  FloatOps.addf (F := Ideal) (∑ f : Fin 128, x (ix3 (0 : Fin 1) n f) * W1 (ix2 h f)) (b1 (ix1 h))

/-- The first propagation: row `n` of the adjacency against the hidden features. -/
def agg (n : Fin 10000) (h : Fin 128) : Ideal .f32 :=
  ∑ k : Fin 10000, adj (ix3 (0 : Fin 1) n k) * hid x W1 b1 k h

/-- The parametric ReLU of the propagated features. -/
def act (n : Fin 10000) (h : Fin 128) : Ideal .f32 :=
  FloatOps.addf (F := Ideal) (FloatOps.maximumf (F := Ideal) (agg x adj W1 b1 n h) zero)
    (FloatOps.mulf (F := Ideal) (a ix0) (FloatOps.minimumf (F := Ideal) (agg x adj W1 b1 n h) zero))

/-- The second linear layer. -/
def lin (n : Fin 10000) (h : Fin 128) : Ideal .f32 :=
  FloatOps.addf (F := Ideal) (∑ j : Fin 128, act x adj W1 b1 a n j * W2 (ix2 h j)) (b2 (ix1 h))

/-- The second propagation: the layer's output at node `n`, feature `h`. -/
def out (n : Fin 10000) (h : Fin 128) : Ideal .f32 :=
  ∑ k : Fin 10000, adj (ix3 (0 : Fin 1) n k) * lin x adj W1 b1 W2 b2 a k h

/-- The layer's output as an array of shape [1, N, 128]. -/
def layer : Feat := fun i => out x adj W1 b1 W2 b2 a (i 1) (i 2)

end Cert.Spec

end
-- ==== Proof.PayIdx.lean ====
/-
  The kernel body's arithmetic, read one element at a time, over the extended reals.

  All three matrix products of the body are plain ones: they contract the left operand's columns with the right
  operand's rows into an accumulator that is the zero array. Read at (p, q) such a product is Σ k, l[p,k] · r[k,q]:
  the contraction's index set has one axis, so the sum over it is the sum over that axis' coordinate k, and the operand
  indices the product reads at (p, q) and k are (p, k) and (k, q).

  With that, each payload at an index is a reading of the specification's formulas:

    first payload   at (n, h):  (Σ f, x[n,f] · w[f,h]) + b[0,h]                           features times weight, plus bias
    strip product   at (r, h):  Σ k, adj[0,r,k] · s[k,h]                                  a strip of the adjacency times the scratch
    strip layer     at (r, h):  (Σ j, P j · w[j,h]) + b[0,h],  P j = max (S j) 0 + a[0,0] · min (S j) 0,
                                S j = Σ k, adj[0,r,k] · s[k,j]                             the strip product, the ReLU, the second linear layer

  The remaining operations only move values: a cast of a shape to itself is the identity, the cast [1,400,N] → [400,N]
  reads (0, r, k) at (r, k), the broadcast of a [1,128] row reads its column, a scalar broadcast reads the scalar.
-/
import proofs.«142808_g28707561406990_cont_9to1_1291_10_alg».proof.Proof.Gen.KernelIdeal.Skeleton
import proofs.«142808_g28707561406990_cont_9to1_1291_10_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx

/-! ## A plain matrix product at an index -/

/-- A product of an [a, b] by a [b, c] matrix into the zero accumulator, read at (p, q), is Σ k, l[p,k] · r[k,q] —
    given that the contraction has the one axis of extent b and that the product reads its operands where a plain product does
    (the left operand at the result's row and the contraction's coordinate, the right at that coordinate and the result's
    column). -/
theorem matmul_zero_ix2 {a b c : Nat} (D : DotDims ⟨2, ![a, b]⟩ ⟨2, ![b, c]⟩ ⟨2, ![a, c]⟩)
    (hr : D.contr.rank = 1) (hs : D.contr.size ⟨0, by omega⟩ = b)
    (hl0 : ∀ (i : (⟨2, ![a, c]⟩ : Shape).Idx) (q : D.contr.Idx), (D.lhsIdx i q 0).val = (i 0).val)
    (hl1 : ∀ (i : (⟨2, ![a, c]⟩ : Shape).Idx) (q : D.contr.Idx), (D.lhsIdx i q 1).val = (q ⟨0, by omega⟩).val)
    (hr0 : ∀ (i : (⟨2, ![a, c]⟩ : Shape).Idx) (q : D.contr.Idx), (D.rhsIdx i q 0).val = (q ⟨0, by omega⟩).val)
    (hr1 : ∀ (i : (⟨2, ![a, c]⟩ : Shape).Idx) (q : D.contr.Idx), (D.rhsIdx i q 1).val = (i 1).val)
    (l : FVec Ideal ⟨2, ![a, b]⟩ .f32) (r : FVec Ideal ⟨2, ![b, c]⟩ .f32) (p : Fin a) (q : Fin c) :
    FloatOps.matmul (F := Ideal) D none l r (constant (F := Ideal) ⟨2, ![a, c]⟩ .f32 0x00000000#32) (ix2 p q)
      = ∑ k : Fin b, l (ix2 p k) * r (ix2 k q) := by
  rw [Ideal.matmul_constant_zero_apply, ← Equiv.sum_comp (contrEquiv1 D b hr hs).symm]
  refine Finset.sum_congr rfl fun k _ => ?_
  have hk := contrEquiv1_symm_val D b hr hs k
  have el : D.lhsIdx (ix2 p q) ((contrEquiv1 D b hr hs).symm k) = ix2 p k := funext fun x => Fin.ext (by
    match x with
    | ⟨0, _⟩ => exact hl0 _ _
    | ⟨1, _⟩ => exact (hl1 _ _).trans hk)
  have er : D.rhsIdx (ix2 p q) ((contrEquiv1 D b hr hs).symm k) = ix2 k q := funext fun x => Fin.ext (by
    match x with
    | ⟨0, _⟩ => exact (hr0 _ _).trans hk
    | ⟨1, _⟩ => exact hr1 _ _)
  rw [el, er]

/-! ## Where the body's three products read their operands -/

/-! ### Features times weight: [10000,128] by [128,128] -/

theorem l0_feat (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem l1_feat (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem r0_feat (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem r1_feat (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-! ### A strip of the adjacency times the scratch: [400,10000] by [10000,128] -/

theorem l0_adj (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem l1_adj (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem r0_adj (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem r1_adj (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-! ### The activated strip times weight: [400,128] by [128,128] -/

theorem l0_lin (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl
theorem l1_lin (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem r0_lin (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem r1_lin (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-! ## The payloads at an index -/

/-- The strip product at (r, h): row r of the adjacency strip against column h of the scratch. -/
theorem pay4_apply (v5 : Vec Ideal S1x400x10000 .f32) (v13 : Vec Ideal S10000x128 .f32) (r : Fin 400) (h : Fin 128) :
    k0_pay4 (F := Ideal) v5 v13 (ix2 r h) = ∑ k : Fin 10000, v5 (ix3 (0 : Fin 1) r k) * v13 (ix2 k h) := by
  unfold k0_pay4 k0_pay2
  refine (matmul_zero_ix2 dot_S400x10000_S10000x128_S400x128_1_0_0_1_n_n rfl rfl l0_adj l1_adj r0_adj r1_adj _ _ r h).trans ?_
  refine Finset.sum_congr rfl fun k _ => ?_
  rw [shapeCast_1ab_ab_apply]

/-- The first payload at (n, h): the first linear layer. -/
theorem pay1_apply (v13 : Vec Ideal S10000x128 .f32) (v15 : Vec Ideal S128x128 .f32) (v18 : Vec Ideal S1x128 .f32)
    (n : Fin 10000) (h : Fin 128) :
    k0_pay1 (F := Ideal) v13 v15 v18 (ix2 n h)
      = FloatOps.addf (F := Ideal) (∑ f : Fin 128, v13 (ix2 n f) * v15 (ix2 f h)) (v18 (ix2 (0 : Fin 1) h)) := by
  unfold k0_pay1
  simp only [shapeCast_self]
  refine congrArg₂ (FloatOps.addf (F := Ideal)) ?_ ?_
  · exact matmul_zero_ix2 dot_S10000x128_S128x128_S10000x128_1_0_0_1_n_n rfl rfl l0_feat l1_feat r0_feat r1_feat _ _ n h
  · exact broadcastTo_1b_ab_apply _ _ n h

/-- The one element of the [1,1] slope array, as the body extracts it. -/
theorem extract_slope (v15 : Vec Ideal S1x1 .f32) (hp : ∀ a, (![0, 0] : Fin 2 → Nat) a < S1x1.size a) :
    extractAt ![0, 0] v15 hp = v15 (ix2 (0 : Fin 1) (0 : Fin 1)) :=
  congrArg v15 (funext fun a => Fin.ext (by match a with | ⟨0, _⟩ => rfl | ⟨1, _⟩ => rfl))

/-- The strip layer at (r, h): the strip product, the parametric ReLU with the slope a[0,0], the second linear layer. -/
theorem pay3_apply (v5 : Vec Ideal S1x400x10000 .f32) (v13 : Vec Ideal S10000x128 .f32) (v15 : Vec Ideal S1x1 .f32)
    (v24 : Vec Ideal S128x128 .f32) (v27 : Vec Ideal S1x128 .f32) (r : Fin 400) (h : Fin 128) :
    k0_pay3 (F := Ideal) v5 v13 v15 v24 v27 (ix2 r h)
      = FloatOps.addf (F := Ideal)
          (∑ j : Fin 128,
            FloatOps.addf (F := Ideal)
              (FloatOps.maximumf (F := Ideal) (∑ k : Fin 10000, v5 (ix3 (0 : Fin 1) r k) * v13 (ix2 k j)) Cert.Spec.zero)
              (FloatOps.mulf (F := Ideal) (v15 (ix2 (0 : Fin 1) (0 : Fin 1)))
                (FloatOps.minimumf (F := Ideal) (∑ k : Fin 10000, v5 (ix3 (0 : Fin 1) r k) * v13 (ix2 k j)) Cert.Spec.zero))
              * v24 (ix2 j h))
          (v27 (ix2 (0 : Fin 1) h)) := by
  unfold k0_pay3
  simp only [shapeCast_self]
  refine congrArg₂ (FloatOps.addf (F := Ideal)) ?_ ?_
  · refine (matmul_zero_ix2 dot_S400x128_S128x128_S400x128_1_0_0_1_n_n rfl rfl l0_lin l1_lin r0_lin r1_lin _ _ r h).trans ?_
    refine Finset.sum_congr rfl fun j _ => ?_
    refine congrArg (· * v24 (ix2 j h)) ?_
    show FloatOps.addf (F := Ideal)
        (FloatOps.maximumf (F := Ideal) (k0_pay4 (F := Ideal) v5 v13 (ix2 r j)) Cert.Spec.zero)
        (FloatOps.mulf (F := Ideal) (extractAt ![0, 0] v15 _)
          (FloatOps.minimumf (F := Ideal) (k0_pay4 (F := Ideal) v5 v13 (ix2 r j)) Cert.Spec.zero)) = _
    rw [pay4_apply, extract_slope]
  · exact broadcastTo_1b_ab_apply _ _ r h

end Cert.KernelIdeal.PayIdx

end
-- ==== Proof.KValue.lean ====
/-
  The array the idealized kernel leaves, index by index, is the layer of the specification.

  Three steps. (1) What the region's windows stage, read at an index, in terms of the ARGUMENT arrays: the adjacency
  window's block at point t is rows [400 (t mod 25), +400) of the adjacency; the other six windows stage whole arrays
  the host prepared — the features reshaped [1,N,128] → [N,128], the two weight matrices TRANSPOSED (so entry (f, h) of
  the staged matrix is entry (h, f) of the argument), the biases and the slope reshaped to rows. (2) With the kernel's
  three payloads read at an index (sums of products over the contraction index), the hidden features are the
  specification's `hid`, the stacked strips its `lin`, and the block the body leaves at point t ≥ 25 is rows
  [400 (t − 25), +400) of its `out`. (3) The 25 blocks written back tile the [N, 128] result array, which therefore ends
  at `out`; the host's final reshape to [1, N, 128] makes it `layer`.
-/
import proofs.«142808_g28707561406990_cont_9to1_1291_10_alg».proof.Proof.KData
import proofs.«142808_g28707561406990_cont_9to1_1291_10_alg».proof.Proof.PayIdx
import proofs.«142808_g28707561406990_cont_9to1_1291_10_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open scoped BigOperators

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

variable (m : (ℓ : Loc nD τ sig) → Buf (Elt Ideal) ℓ) (ρ : Dev nD → PrngReg)

/-! ## The arrays the region finds, at an index -/

theorem V_v0 (c : Dev nD) (n : Fin 10000) (f : Fin 128) :
    (V m c main_v0 : S10000x128.Idx → Elt Ideal .f32) (ix2 n f) = (m ((c : Thread nD τ).loc main_arg0) : S1x10000x128.Idx → Elt Ideal .f32) (ix3 (0 : Fin 1) n f) := by
  show StableHlo.after hostOps0 (fun b => m (c, b)) (Proc.devRef .tc main_v0) (ix2 n f) = _
  after_results
  show shapeCast S10000x128 (m (c, Proc.devRef .tc main_arg0)) shapeCasts_S1x10000x128_S10000x128 (ix2 n f) = _
  refine (shapeCast_dropUnit_apply ![10000, 128] _ _ (ix2 n f)).trans (congrArg _ (funext fun a => ?_))
  match a with
  | ⟨0, _⟩ => rfl
  | ⟨1, _⟩ => rfl
  | ⟨2, _⟩ => rfl

theorem V_v1 (c : Dev nD) (f : Fin 128) (h : Fin 128) :
    (V m c main_v1 : S128x128.Idx → Elt Ideal .f32) (ix2 f h) = (m ((c : Thread nD τ).loc main_arg2) : S128x128.Idx → Elt Ideal .f32) (ix2 h f) := by
  show StableHlo.after hostOps0 (fun b => m (c, b)) (Proc.devRef .tc main_v1) (ix2 f h) = _
  after_results
  exact transpose_apply _ _ _ (ix2 f h) (ix2 h f) (fun b => by match b with | ⟨0, _⟩ => rfl | ⟨1, _⟩ => rfl)

theorem V_v2 (c : Dev nD) (j : Fin 128) (h : Fin 128) :
    (V m c main_v2 : S128x128.Idx → Elt Ideal .f32) (ix2 j h) = (m ((c : Thread nD τ).loc main_arg4) : S128x128.Idx → Elt Ideal .f32) (ix2 h j) := by
  show StableHlo.after hostOps0 (fun b => m (c, b)) (Proc.devRef .tc main_v2) (ix2 j h) = _
  after_results
  exact transpose_apply _ _ _ (ix2 j h) (ix2 h j) (fun b => by match b with | ⟨0, _⟩ => rfl | ⟨1, _⟩ => rfl)

theorem V_v3 (c : Dev nD) (h : Fin 128) :
    (V m c main_v3 : S1x128.Idx → Elt Ideal .f32) (ix2 (0 : Fin 1) h) = (m ((c : Thread nD τ).loc main_arg3) : S128.Idx → Elt Ideal .f32) (ix1 h) := by
  show StableHlo.after hostOps0 (fun b => m (c, b)) (Proc.devRef .tc main_v3) (ix2 (0 : Fin 1) h) = _
  after_results
  show shapeCast S1x128 (m (c, Proc.devRef .tc main_arg3)) shapeCasts_S128_S1x128 (ix2 (0 : Fin 1) h) = _
  refine (shapeCast_addUnit_apply ![128] _ _ (ix2 (0 : Fin 1) h)).trans (congrArg _ (funext fun a => ?_))
  match a with
  | ⟨0, _⟩ => rfl

theorem V_v4 (c : Dev nD) (h : Fin 128) :
    (V m c main_v4 : S1x128.Idx → Elt Ideal .f32) (ix2 (0 : Fin 1) h) = (m ((c : Thread nD τ).loc main_arg5) : S128.Idx → Elt Ideal .f32) (ix1 h) := by
  show StableHlo.after hostOps0 (fun b => m (c, b)) (Proc.devRef .tc main_v4) (ix2 (0 : Fin 1) h) = _
  after_results
  show shapeCast S1x128 (m (c, Proc.devRef .tc main_arg5)) shapeCasts_S128_S1x128 (ix2 (0 : Fin 1) h) = _
  refine (shapeCast_addUnit_apply ![128] _ _ (ix2 (0 : Fin 1) h)).trans (congrArg _ (funext fun a => ?_))
  match a with
  | ⟨0, _⟩ => rfl

theorem V_v5 (c : Dev nD) :
    (V m c main_v5 : S1x1.Idx → Elt Ideal .f32) (ix2 (0 : Fin 1) (0 : Fin 1)) = (m ((c : Thread nD τ).loc main_arg6) : S_.Idx → Elt Ideal .f32) ix0 := by
  show StableHlo.after hostOps0 (fun b => m (c, b)) (Proc.devRef .tc main_v5) (ix2 (0 : Fin 1) (0 : Fin 1)) = _
  after_results
  show shapeCast S1x1 (m (c, Proc.devRef .tc main_arg6)) shapeCasts_S_S1x1 (ix2 (0 : Fin 1) (0 : Fin 1)) = _
  unfold shapeCast
  exact congrArg _ (funext fun a => a.elim0)

/-! ## The windows' blocks, at an index -/

/-- The adjacency window's block index at point `t`: block `t mod 25` of the row axis. -/
theorem index0 : ∀ t : Fin cfg0.N, win0_0.index t 0 = 0 ∧ win0_0.index t 1 = t.val % 25 ∧ win0_0.index t 2 = 0 :=
  (by decide +kernel : ∀ t : Fin grid0.N, win0_0.index t 0 = 0 ∧ win0_0.index t 1 = t.val % 25 ∧ win0_0.index t 2 = 0)

theorem iblk0_apply (c : Dev nD) (t : Fin cfg0.N) (r : Fin 400) (k : Fin 10000) (n : Fin 10000) (hn : n.val = 400 * (t.val % 25) + r.val) :
    (iblk m c 0 t : Vec Ideal S1x400x10000 .f32) (ix3 (0 : Fin 1) r k) = (m ((c : Thread nD τ).loc main_arg1) : S1x10000x10000.Idx → Elt Ideal .f32) (ix3 (0 : Fin 1) n k) := by
  obtain ⟨i0, i1, i2⟩ := index0 t
  unfold iblk
  rw [View.read_apply]
  show V m c main_arg1 _ = _
  rw [V_main_arg1 m c]
  refine congrArg (m ((c : Thread nD τ).loc main_arg1)) (funext fun a => Fin.ext ?_)
  match a with
  | ⟨0, _⟩ => show win0_0.index t 0 * 1 + 1 * 0 = 0; rw [i0]
  | ⟨1, _⟩ => show win0_0.index t 1 * 400 + 1 * r.val = n.val; rw [i1, hn]; omega
  | ⟨2, _⟩ => show win0_0.index t 2 * 10000 + 1 * k.val = k.val; rw [i2]; omega

theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

theorem iblk1_apply (c : Dev nD) (t : Fin cfg0.N) (n : Fin 10000) (f : Fin 128) :
    (iblk m c 1 t : Vec Ideal S10000x128 .f32) (ix2 n f) = (m ((c : Thread nD τ).loc main_arg0) : S1x10000x128.Idx → Elt Ideal .f32) (ix3 (0 : Fin 1) n f) := by
  obtain ⟨i0, i1⟩ := index1 t
  unfold iblk
  rw [View.read_apply]
  show V m c main_v0 _ = _
  refine Eq.trans (congrArg (V m c main_v0) (funext fun a => Fin.ext ?_)) (V_v0 m c n f)
  match a with
  | ⟨0, _⟩ => show win0_1.index t 0 * 10000 + 1 * n.val = n.val; rw [i0]; omega
  | ⟨1, _⟩ => show win0_1.index t 1 * 128 + 1 * f.val = f.val; rw [i1]; omega

theorem iblk2_apply (c : Dev nD) (t : Fin cfg0.N) (f : Fin 128) (h : Fin 128) :
    (iblk m c 2 t : Vec Ideal S128x128 .f32) (ix2 f h) = (m ((c : Thread nD τ).loc main_arg2) : S128x128.Idx → Elt Ideal .f32) (ix2 h f) := by
  obtain ⟨i0, i1⟩ := index2 t
  unfold iblk
  rw [View.read_apply]
  show V m c main_v1 _ = _
  refine Eq.trans (congrArg (V m c main_v1) (funext fun a => Fin.ext ?_)) (V_v1 m c f h)
  match a with
  | ⟨0, _⟩ => show win0_2.index t 0 * 128 + 1 * f.val = f.val; rw [i0]; omega
  | ⟨1, _⟩ => show win0_2.index t 1 * 128 + 1 * h.val = h.val; rw [i1]; omega

theorem iblk3_apply (c : Dev nD) (t : Fin cfg0.N) (h : Fin 128) :
    (iblk m c 3 t : Vec Ideal S1x128 .f32) (ix2 (0 : Fin 1) h) = (m ((c : Thread nD τ).loc main_arg3) : S128.Idx → Elt Ideal .f32) (ix1 h) := by
  obtain ⟨i0, i1⟩ := index3 t
  unfold iblk
  rw [View.read_apply]
  show V m c main_v3 _ = _
  refine Eq.trans (congrArg (V m c main_v3) (funext fun a => Fin.ext ?_)) (V_v3 m c h)
  match a with
  | ⟨0, _⟩ => show win0_3.index t 0 * 1 + 1 * 0 = 0; rw [i0]
  | ⟨1, _⟩ => show win0_3.index t 1 * 128 + 1 * h.val = h.val; rw [i1]; omega

theorem iblk4_apply (c : Dev nD) (t : Fin cfg0.N) (j : Fin 128) (h : Fin 128) :
    (iblk m c 4 t : Vec Ideal S128x128 .f32) (ix2 j h) = (m ((c : Thread nD τ).loc main_arg4) : S128x128.Idx → Elt Ideal .f32) (ix2 h j) := by
  obtain ⟨i0, i1⟩ := index4 t
  unfold iblk
  rw [View.read_apply]
  show V m c main_v2 _ = _
  refine Eq.trans (congrArg (V m c main_v2) (funext fun a => Fin.ext ?_)) (V_v2 m c j h)
  match a with
  | ⟨0, _⟩ => show win0_4.index t 0 * 128 + 1 * j.val = j.val; rw [i0]; omega
  | ⟨1, _⟩ => show win0_4.index t 1 * 128 + 1 * h.val = h.val; rw [i1]; omega

theorem iblk5_apply (c : Dev nD) (t : Fin cfg0.N) (h : Fin 128) :
    (iblk m c 5 t : Vec Ideal S1x128 .f32) (ix2 (0 : Fin 1) h) = (m ((c : Thread nD τ).loc main_arg5) : S128.Idx → Elt Ideal .f32) (ix1 h) := by
  obtain ⟨i0, i1⟩ := index5 t
  unfold iblk
  rw [View.read_apply]
  show V m c main_v4 _ = _
  refine Eq.trans (congrArg (V m c main_v4) (funext fun a => Fin.ext ?_)) (V_v4 m c h)
  match a with
  | ⟨0, _⟩ => show win0_5.index t 0 * 1 + 1 * 0 = 0; rw [i0]
  | ⟨1, _⟩ => show win0_5.index t 1 * 128 + 1 * h.val = h.val; rw [i1]; omega

theorem iblk6_apply (c : Dev nD) (t : Fin cfg0.N) :
    (iblk m c 6 t : Vec Ideal S1x1 .f32) (ix2 (0 : Fin 1) (0 : Fin 1)) = (m ((c : Thread nD τ).loc main_arg6) : S_.Idx → Elt Ideal .f32) ix0 := by
  obtain ⟨i0, i1⟩ := index6 t
  unfold iblk
  rw [View.read_apply]
  show V m c main_v5 _ = _
  refine Eq.trans (congrArg (V m c main_v5) (funext fun a => Fin.ext ?_)) (V_v5 m c)
  match a with
  | ⟨0, _⟩ => show win0_6.index t 0 * 1 + 1 * 0 = 0; rw [i0]
  | ⟨1, _⟩ => show win0_6.index t 1 * 1 + 1 * 0 = 0; rw [i1]

/-! ## The scratch buffers hold the specification's intermediate arrays -/

/-- The first scratch holds the first linear layer. -/
theorem H_apply (c : Dev nD) (n : Fin 10000) (h : Fin 128) :
    (H m c : Vec Ideal S10000x128 .f32) (ix2 n h) = Cert.Spec.hid (m ((c : Thread nD τ).loc main_arg0)) (m ((c : Thread nD τ).loc main_arg2)) (m ((c : Thread nD τ).loc main_arg3)) n h := by
  unfold H
  rw [PayIdx.pay1_apply]
  unfold Cert.Spec.hid
  rw [iblk3_apply]
  refine congrArg (fun s => FloatOps.addf (F := Ideal) s _) (Finset.sum_congr rfl fun f _ => ?_)
  rw [iblk1_apply, iblk2_apply]

/-- A row of the adjacency against the first scratch is the first propagation: stated over any two vectors that
    read as the adjacency's row `k` and as the first linear layer. -/
theorem agg_of (c : Dev nD) (A0 : Vec Ideal S1x400x10000 .f32) (Hh : Vec Ideal S10000x128 .f32) (r : Fin 400) (k : Fin 10000) (j : Fin 128)
    (hA : ∀ k' : Fin 10000, A0 (ix3 (0 : Fin 1) r k') = (m ((c : Thread nD τ).loc main_arg1) : S1x10000x10000.Idx → Elt Ideal .f32) (ix3 (0 : Fin 1) k k'))
    (hH : ∀ k' : Fin 10000, Hh (ix2 k' j) = Cert.Spec.hid (m ((c : Thread nD τ).loc main_arg0)) (m ((c : Thread nD τ).loc main_arg2)) (m ((c : Thread nD τ).loc main_arg3)) k' j) :
    (∑ k' : Fin 10000, A0 (ix3 (0 : Fin 1) r k') * Hh (ix2 k' j)) = Cert.Spec.agg (m ((c : Thread nD τ).loc main_arg0)) (m ((c : Thread nD τ).loc main_arg1)) (m ((c : Thread nD τ).loc main_arg2)) (m ((c : Thread nD τ).loc main_arg3)) k j := by
  unfold Cert.Spec.agg
  exact Finset.sum_congr rfl fun k' _ => by rw [hA k', hH k']

/-- The stacked strips are the second linear layer. -/
theorem full_apply (c : Dev nD) (k : Fin 10000) (h : Fin 128) :
    (full m c : Vec Ideal S10000x128 .f32) (ix2 k h) = Cert.Spec.lin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k h := by
  have hk : k.val = 400 * ((ptOf (ix2 k h)).val % 25) + (⟨k.val % 400, Nat.mod_lt _ (by omega)⟩ : Fin 400).val := by
    show k.val = 400 * ((k.val / 400) % 25) + k.val % 400
    have := k.isLt; omega
  show k0_pay3 (F := Ideal) (iblk m c 0 (ptOf (ix2 k h))) (H m c) (iblk m c 6 (ptOf (ix2 k h))) (iblk m c 4 (ptOf (ix2 k h))) (iblk m c 5 (ptOf (ix2 k h)))
      (ix2 (⟨k.val % 400, Nat.mod_lt _ (by omega)⟩ : Fin 400) h) = _
  rw [PayIdx.pay3_apply]
  unfold Cert.Spec.lin
  rw [iblk5_apply]
  refine congrArg (fun s => FloatOps.addf (F := Ideal) s _) (Finset.sum_congr rfl fun j _ => ?_)
  rw [iblk4_apply, iblk6_apply, agg_of m c _ _ _ k j (fun k' => iblk0_apply m c _ _ k' k hk) (fun k' => H_apply m c k' j)]
  rfl

/-! ## The blocks written back, and the result array -/

theorem row_out (y : S10000x128.Idx) : 25 + (y 0).val / 400 < cfg0.N := by
  have h : (y 0).val < 10000 := (y 0).isLt
  rw [N50]; omega

/-- The point of the second grid row whose block holds row `y 0`. -/
def outPt (y : S10000x128.Idx) : Fin cfg0.N := ⟨25 + (y 0).val / 400, row_out y⟩

/-- What the [N, 128] result array ends at: row r from the block point `25 + r div 400` wrote back. -/
def outArr (c : Dev nD) : Buf (Elt Ideal) ((c : Thread nD τ).loc main_v6) :=
  fun y => k0_pay4 (F := Ideal) (iblk m c 0 (outPt y)) (full m c) (locOf y)

theorem index7 : ∀ t : Fin cfg0.N, 25 ≤ t.val → win0_7.index t 0 = t.val - 25 ∧ win0_7.index t 1 = 0 :=
  (by decide +kernel : ∀ t : Fin grid0.N, 25 ≤ t.val → win0_7.index t 0 = t.val - 25 ∧ win0_7.index t 1 = 0)
theorem xsize7 : ∀ t : Fin cfg0.N, win0_7.xsize (grid0.coords t) 0 = 400 ∧ win0_7.xsize (grid0.coords t) 1 = 128 :=
  (by decide +kernel : ∀ t : Fin grid0.N, win0_7.xsize (grid0.coords t) 0 = 400 ∧ win0_7.xsize (grid0.coords t) 1 = 128)

/-- Every write-back writes its block of `outArr`. -/
theorem flushed_eq (c : Dev nD) (t : Fin cfg0.N) (hf : (cfg0.win 7).flush t = true) :
    (dats m 0 c).flushed 7 t = ((cfg0.win 7).blk t).view.read (Elt Ideal) (outArr m c) := by
  have h25 : 25 ≤ t.val := by
    by_contra h
    rw [noflush7_lo t (by omega)] at hf
    exact Bool.false_ne_true hf
  have hN : t.val < 50 := lt_of_lt_of_eq t.isLt N50
  obtain ⟨i0, i1⟩ := index7 t h25
  show (cfg0.win 7).cut (grid0.coords t) ((dats m 0 c).after 7 t) = _
  rw [after7]
  funext x
  rw [View.read_apply]
  have hx0 : (x 0).val < 400 := (x 0).isLt
  have e0 : ((((cfg0.win 7).blk t).view.emb x) 0).val = (t.val - 25) * 400 + (x 0).val := by
    show win0_7.index t 0 * 400 + 1 * (x 0).val = _; rw [i0]; omega
  have e1 : ((((cfg0.win 7).blk t).view.emb x) 1).val = (x 1).val := by
    show win0_7.index t 1 * 128 + 1 * (x 1).val = _; rw [i1]; omega
  have hp : outPt (((cfg0.win 7).blk t).view.emb x) = t := Fin.ext (by
    show 25 + ((((cfg0.win 7).blk t).view.emb x) 0).val / 400 = t.val; rw [e0]; omega)
  have hl : locOf (((cfg0.win 7).blk t).view.emb x) = x := funext fun a => by
    match a with
    | ⟨0, _⟩ => exact Fin.ext (by show ((((cfg0.win 7).blk t).view.emb x) 0).val % 400 = (x 0).val; rw [e0]; omega)
    | ⟨1, _⟩ => exact Fin.ext e1
  show k0_pay4 (F := Ideal) (iblk m c 0 t) (full m c) x = outArr m c (((cfg0.win 7).blk t).view.emb x)
  unfold outArr
  rw [hp, hl]

/-- The 25 blocks tile the array. -/
theorem cover7 (c : Dev nD) (i : ((cfg0.win 7).arr.view.loc (c.tc : Thread nD τ)).2.ty.Idx) :
    ∃ t : Fin cfg0.N, (cfg0.win 7).flush t = true ∧ i ∈ ((cfg0.win 7).blk t).view.set := by
  have h0 : (i 0 : Nat) < 10000 := (i 0).isLt
  have h1 : (i 1 : Nat) < 128 := (i 1).isLt
  have hlt : 25 + (i 0 : Nat) / 400 < cfg0.N := by rw [N50]; omega
  obtain ⟨i0, i1⟩ := index7 ⟨25 + (i 0 : Nat) / 400, hlt⟩ (by show 25 ≤ 25 + (i 0 : Nat) / 400; omega)
  obtain ⟨x0, x1⟩ := xsize7 ⟨25 + (i 0 : Nat) / 400, hlt⟩
  refine ⟨⟨25 + (i 0 : Nat) / 400, hlt⟩, flush7_hi _ (by show 25 ≤ 25 + (i 0 : Nat) / 400; omega), ?_⟩
  show i ∈ ((View.whole main_v6).slice (win0_7.rect ⟨25 + (i 0 : Nat) / 400, hlt⟩)).set
  rw [View.set_slice_whole, Rect.mem_set_unit]
  intro a
  match a with
  | ⟨0, _⟩ =>
    show win0_7.index ⟨25 + (i 0 : Nat) / 400, hlt⟩ 0 * 400 ≤ (i 0 : Nat) ∧ (i 0 : Nat) < win0_7.index ⟨25 + (i 0 : Nat) / 400, hlt⟩ 0 * 400 + win0_7.xsize (grid0.coords ⟨25 + (i 0 : Nat) / 400, hlt⟩) 0
    rw [i0, x0]; show (25 + (i 0 : Nat) / 400 - 25) * 400 ≤ (i 0 : Nat) ∧ (i 0 : Nat) < (25 + (i 0 : Nat) / 400 - 25) * 400 + 400; omega
  | ⟨1, _⟩ =>
    show win0_7.index ⟨25 + (i 0 : Nat) / 400, hlt⟩ 1 * 128 ≤ (i 1 : Nat) ∧ (i 1 : Nat) < win0_7.index ⟨25 + (i 0 : Nat) / 400, hlt⟩ 1 * 128 + win0_7.xsize (grid0.coords ⟨25 + (i 0 : Nat) / 400, hlt⟩) 1
    rw [i1, x1]; omega

/-- So the result array ends at `outArr`. -/
theorem final7 (c : Dev nD) : (dats m 0 c).arrAt 7 cfg0.N = outArr m c :=
  (dats m 0 c).arrAt_eq_of_cover 7 (outArr m c) (flushed_eq m c) (cover7 c)

/-- And `outArr` is the second propagation. -/
theorem outArr_apply (c : Dev nD) (n : Fin 10000) (h : Fin 128) :
    outArr m c (ix2 n h) = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n h := by
  have hn : n.val = 400 * ((outPt (ix2 n h)).val % 25) + (⟨n.val % 400, Nat.mod_lt _ (by omega)⟩ : Fin 400).val := by
    show n.val = 400 * ((25 + n.val / 400) % 25) + n.val % 400
    have := n.isLt; omega
  show k0_pay4 (F := Ideal) (iblk m c 0 (outPt (ix2 n h))) (full m c) (ix2 (⟨n.val % 400, Nat.mod_lt _ (by omega)⟩ : Fin 400) h) = _
  rw [PayIdx.pay4_apply]
  unfold Cert.Spec.out
  refine Finset.sum_congr rfl fun k _ => ?_
  rw [iblk0_apply m c _ _ k n hn, full_apply]

/-! ## The program's result -/

/-- After the host's final reshape [N, 128] → [1, N, 128] the program's result is the layer. -/
theorem result_eq (c : Dev nD) :
    Pipeline.afterTail₀ cfgs (dats m) 0 (V0 m) [hostOps1] c main_v7 = Cert.Spec.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨z, n, h, rfl⟩ : ∃ (z : Fin 1) (n : Fin 10000) (h : Fin 128), i = ix3 z n h := ⟨i 0, i 1, i 2, eq_ix3 i⟩
  unfold Pipeline.afterTail₀
  show StableHlo.after hostOps1 _ (Proc.devRef .tc main_v7) (ix3 z n h) = _
  after_results
  show shapeCast S1x10000x128 (Pipeline.withArrays (cfgs 0).spec c (V0 m c) (fun w => (dats m 0 c).arrAt w (cfgs 0).N)
      (Proc.devRef .tc main_v6)) shapeCasts_S10000x128_S1x10000x128 (ix3 z n h) = _
  refine (shapeCast_addUnit_apply ![10000, 128] _ _ (ix3 z n h)).trans ?_
  have hw : Pipeline.withArrays (cfgs 0).spec c (V0 m c) (fun w => (dats m 0 c).arrAt w (cfgs 0).N) (Proc.devRef .tc main_v6) = outArr m c :=
    (Pipeline.withArrays_arr spec0 launch0.win.arr_inj c _ _ 7).trans (final7 m c)
  rw [hw]
  have hi : (fun a : Fin 2 => (ix3 z n h) a.succ) = ix2 n h := funext fun a => by
    match a with
    | ⟨0, _⟩ => rfl
    | ⟨1, _⟩ => rfl
  rw [hi, outArr_apply]
  rfl

/-- The idealized kernel's run, read: the result at the layer of the argument arrays, the arguments unchanged. -/
theorem run : θ_run defs (onTc (τ := τ) (main (F := Ideal))) ⟨m, fun _ => 0, ρ⟩ (fun r => ∀ c : Dev nD,
      r.2.mem ((c.tc : Thread nD τ).loc main_v7) = Cert.Spec.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v7 (Pipeline.mem_restRefs_of main_v7 (by decide) (by decide))).trans (result_eq m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Result

end
-- ==== Proof.RefSide.lean ====
/-
  The reference program computes the graph-convolution layer of the specification, index by index.

  The reference is five stages deep. Reading each stage at the index (0, n, h) of its [1, N, 128] result:

    stage  3  is  (Σ f, x[0,n,f] · W1[h,f]) + b1[h]                    the first linear layer        (hid)
    stage  4  is  Σ k, adj[0,n,k] · (stage 3 at (0,k,h))                the first propagation         (agg)
    stage 11  is  max (stage 4) 0 + a · min (stage 4) 0                 the parametric ReLU           (act)
    stage 15  is  (Σ j, (stage 11 at (0,n,j)) · W2[h,j]) + b2[h]        the second linear layer       (lin)
    stage 16  is  Σ k, adj[0,n,k] · (stage 15 at (0,k,h))               the second propagation        (out)

  Each contraction is already the finite sum over its one contracted coordinate, each bias is a broadcast along the
  node axis, the zero and the slope are broadcasts of a scalar. So the only thing to prove is that the index each
  operand is read at is the index the specification writes: an equation between two functions on three (or two, or
  one) coordinates, checked coordinate by coordinate. No law of arithmetic is used.
-/
import proofs.«142808_g28707561406990_cont_9to1_1291_10_alg».proof.Defs
import proofs.«142808_g28707561406990_cont_9to1_1291_10_alg».proof.Proof.Gen.ReferenceIdeal.Read
import proofs.«142808_g28707561406990_cont_9to1_1291_10_alg».proof.Proof.Spec

noncomputable section

open scoped BigOperators

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Where each operand is read -/

/-- A feature contraction reads its left operand along the row (0, n, ·) … -/
theorem lidx0 (n : Fin 10000) (h : Fin 128) (k : Fin 128) :
    lidx_main_v0 (ix3 (0 : Fin 1) n h) k = ix3 (0 : Fin 1) n k :=
  funext fun a => Fin.ext (by match a with | ⟨0, _⟩ => rfl | ⟨1, _⟩ => rfl | ⟨2, _⟩ => rfl)
/-- … and the weight along its row h (the weight is stored output-feature first). -/
theorem ridx0 (n : Fin 10000) (h : Fin 128) (k : Fin 128) :
    ridx_main_v0 (ix3 (0 : Fin 1) n h) k = ix2 h k :=
  funext fun a => Fin.ext (by match a with | ⟨0, _⟩ => rfl | ⟨1, _⟩ => rfl)
theorem lidx12 (n : Fin 10000) (h : Fin 128) (k : Fin 128) :
    lidx_main_v12 (ix3 (0 : Fin 1) n h) k = ix3 (0 : Fin 1) n k :=
  funext fun a => Fin.ext (by match a with | ⟨0, _⟩ => rfl | ⟨1, _⟩ => rfl | ⟨2, _⟩ => rfl)
theorem ridx12 (n : Fin 10000) (h : Fin 128) (k : Fin 128) :
    ridx_main_v12 (ix3 (0 : Fin 1) n h) k = ix2 h k :=
  funext fun a => Fin.ext (by match a with | ⟨0, _⟩ => rfl | ⟨1, _⟩ => rfl)
/-- A propagation reads the adjacency along its row (0, n, ·) … -/
theorem lidx4 (n : Fin 10000) (h : Fin 128) (k : Fin 10000) :
    lidx_main_v4 (ix3 (0 : Fin 1) n h) k = ix3 (0 : Fin 1) n k :=
  funext fun a => Fin.ext (by match a with | ⟨0, _⟩ => rfl | ⟨1, _⟩ => rfl | ⟨2, _⟩ => rfl)
/-- … and the features down the column (0, ·, h). -/
theorem ridx4 (n : Fin 10000) (h : Fin 128) (k : Fin 10000) :
    ridx_main_v4 (ix3 (0 : Fin 1) n h) k = ix3 (0 : Fin 1) k h :=
  funext fun a => Fin.ext (by match a with | ⟨0, _⟩ => rfl | ⟨1, _⟩ => rfl | ⟨2, _⟩ => rfl)
theorem lidx16 (n : Fin 10000) (h : Fin 128) (k : Fin 10000) :
    lidx_main_v16 (ix3 (0 : Fin 1) n h) k = ix3 (0 : Fin 1) n k :=
  funext fun a => Fin.ext (by match a with | ⟨0, _⟩ => rfl | ⟨1, _⟩ => rfl | ⟨2, _⟩ => rfl)
theorem ridx16 (n : Fin 10000) (h : Fin 128) (k : Fin 10000) :
    ridx_main_v16 (ix3 (0 : Fin 1) n h) k = ix3 (0 : Fin 1) k h :=
  funext fun a => Fin.ext (by match a with | ⟨0, _⟩ => rfl | ⟨1, _⟩ => rfl | ⟨2, _⟩ => rfl)
/-- A bias, broadcast first to [1, 1, 128] and then along the nodes, is read at the feature coordinate. -/
theorem bidx1 (n : Fin 10000) (h : Fin 128) :
    idx_main_v1 (idx_main_v2 (ix3 (0 : Fin 1) n h)) = ix1 h :=
  funext fun a => Fin.ext (by match a with | ⟨0, _⟩ => rfl)
theorem bidx13 (n : Fin 10000) (h : Fin 128) :
    idx_main_v13 (idx_main_v14 (ix3 (0 : Fin 1) n h)) = ix1 h :=
  funext fun a => Fin.ext (by match a with | ⟨0, _⟩ => rfl)

/-! ## The five stages -/

/-- Stage 3 is the first linear layer. -/
theorem v3_eq (x0 : (⟨S1x10000x128, .f32⟩ : BufTy).Contents (Elt Ideal)) (x2 : (⟨S128x128, .f32⟩ : BufTy).Contents (Elt Ideal)) (x3 : (⟨S128, .f32⟩ : BufTy).Contents (Elt Ideal)) (n : Fin 10000) (h : Fin 128) :
    val_main_v3 (F := Ideal) x0 x2 x3 (ix3 (0 : Fin 1) n h) = Cert.Spec.hid x0 x2 x3 n h := by
  rw [val_main_v3_apply, val_main_v0_apply, val_main_v2_apply, val_main_v1_apply]
  unfold Cert.Spec.hid
  simp only [lidx0, ridx0, bidx1]

/-- Stage 4 is the first propagation. -/
theorem v4_eq (x0 : (⟨S1x10000x128, .f32⟩ : BufTy).Contents (Elt Ideal)) (x1 : (⟨S1x10000x10000, .f32⟩ : BufTy).Contents (Elt Ideal)) (x2 : (⟨S128x128, .f32⟩ : BufTy).Contents (Elt Ideal)) (x3 : (⟨S128, .f32⟩ : BufTy).Contents (Elt Ideal)) (n : Fin 10000) (h : Fin 128) :
    val_main_v4 (F := Ideal) x0 x1 x2 x3 (ix3 (0 : Fin 1) n h) = Cert.Spec.agg x0 x1 x2 x3 n h := by
  rw [val_main_v4_apply]
  unfold Cert.Spec.agg
  refine Finset.sum_congr rfl fun k _ => ?_
  rw [lidx4, ridx4, v3_eq]

/-- Stage 11 is the parametric ReLU of stage 4: both zeros are the word 0, the slope is the scalar argument. -/
theorem v11_eq (x0 : (⟨S1x10000x128, .f32⟩ : BufTy).Contents (Elt Ideal)) (x1 : (⟨S1x10000x10000, .f32⟩ : BufTy).Contents (Elt Ideal)) (x2 : (⟨S128x128, .f32⟩ : BufTy).Contents (Elt Ideal)) (x3 : (⟨S128, .f32⟩ : BufTy).Contents (Elt Ideal)) (x6 : (⟨S_, .f32⟩ : BufTy).Contents (Elt Ideal)) (n : Fin 10000) (h : Fin 128) :
    val_main_v11 (F := Ideal) x0 x1 x2 x3 x6 (ix3 (0 : Fin 1) n h) = Cert.Spec.act x0 x1 x2 x3 x6 n h := by
  rw [val_main_v11_apply, val_main_v6_apply, val_main_v10_apply, val_main_v8_apply, val_main_v9_apply,
    val_main_v5_apply, val_main_v7_apply, val_main_cst_apply, val_main_cst_0_apply, v4_eq]
  rfl

/-- Stage 15 is the second linear layer. -/
theorem v15_eq (x0 : (⟨S1x10000x128, .f32⟩ : BufTy).Contents (Elt Ideal)) (x1 : (⟨S1x10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S_, .f32⟩ : BufTy).Contents (Elt Ideal)) (n : Fin 10000) (h : Fin 128) :
    val_main_v15 (F := Ideal) x0 x1 x2 x3 x4 x5 x6 (ix3 (0 : Fin 1) n h) = Cert.Spec.lin x0 x1 x2 x3 x4 x5 x6 n h := by
  rw [val_main_v15_apply, val_main_v12_apply, val_main_v14_apply, val_main_v13_apply]
  unfold Cert.Spec.lin
  simp only [lidx12, ridx12, bidx13, v11_eq]

/-- Stage 16 is the second propagation. -/
theorem v16_eq (x0 : (⟨S1x10000x128, .f32⟩ : BufTy).Contents (Elt Ideal)) (x1 : (⟨S1x10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S_, .f32⟩ : BufTy).Contents (Elt Ideal)) (n : Fin 10000) (h : Fin 128) :
    val_main_v16 (F := Ideal) x0 x1 x2 x3 x4 x5 x6 (ix3 (0 : Fin 1) n h) = Cert.Spec.out x0 x1 x2 x3 x4 x5 x6 n h := by
  rw [val_main_v16_apply]
  unfold Cert.Spec.out
  refine Finset.sum_congr rfl fun k _ => ?_
  rw [lidx16, ridx16, v15_eq]

/-! ## The reference's result is the layer -/

/-- The last stage, as an array, is the specification's layer. -/
theorem ref_eq (x0 : (⟨S1x10000x128, .f32⟩ : BufTy).Contents (Elt Ideal)) (x1 : (⟨S1x10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S_, .f32⟩ : BufTy).Contents (Elt Ideal)) :
    val_main_v16 (F := Ideal) x0 x1 x2 x3 x4 x5 x6 = Cert.Spec.layer x0 x1 x2 x3 x4 x5 x6 := by
  funext i
  obtain ⟨z, n, h, rfl⟩ : ∃ (z : Fin 1) (n : Fin 10000) (h : Fin 128), i = ix3 z n h := ⟨i 0, i 1, i 2, eq_ix3 i⟩
  obtain rfl : z = 0 := Subsingleton.elim _ _
  rw [v16_eq]
  rfl

/-- The composed term of the reference's operations — the term its run leaves in the result array — is the layer. -/
theorem run_term_eq (x0 : (⟨S1x10000x128, .f32⟩ : BufTy).Contents (Elt Ideal)) (x1 : (⟨S1x10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S_, .f32⟩ : BufTy).Contents (Elt Ideal)) :
    Host.dotGeneral (φ₁ := .f32) (φ₂ := .f32) dot_S1x10000x10000_S1x10000x128_S1x10000x128_2_1_1_2_0_0 none (x1) (addf (Host.dotGeneral (φ₁ := .f32) (φ₂ := .f32) dot_S1x10000x128_S128x128_S1x10000x128_2_1_01_0_n_n none (addf (maximumf (Host.dotGeneral (φ₁ := .f32) (φ₂ := .f32) dot_S1x10000x10000_S1x10000x128_S1x10000x128_2_1_1_2_0_0 none (x1) (addf (Host.dotGeneral (φ₁ := .f32) (φ₂ := .f32) dot_S1x10000x128_S128x128_S1x10000x128_2_1_01_0_n_n none (x0) (x2)) (broadcastInDim S1x10000x128 ![0, 1, 2] bcast_S1x1x128_S1x10000x128_0_1_2 (broadcastInDim S1x1x128 ![2] bcast_S128_S1x1x128_2 (x3))))) (broadcastInDim S1x10000x128 ![] bcast_S_S1x10000x128 (constant (F := Ideal) S_ .f32 0x00000000#32))) (mulf (broadcastInDim S1x10000x128 ![] bcast_S_S1x10000x128 (x6)) (minimumf (Host.dotGeneral (φ₁ := .f32) (φ₂ := .f32) dot_S1x10000x10000_S1x10000x128_S1x10000x128_2_1_1_2_0_0 none (x1) (addf (Host.dotGeneral (φ₁ := .f32) (φ₂ := .f32) dot_S1x10000x128_S128x128_S1x10000x128_2_1_01_0_n_n none (x0) (x2)) (broadcastInDim S1x10000x128 ![0, 1, 2] bcast_S1x1x128_S1x10000x128_0_1_2 (broadcastInDim S1x1x128 ![2] bcast_S128_S1x1x128_2 (x3))))) (broadcastInDim S1x10000x128 ![] bcast_S_S1x10000x128 (constant (F := Ideal) S_ .f32 0x00000000#32))))) (x4)) (broadcastInDim S1x10000x128 ![0, 1, 2] bcast_S1x1x128_S1x10000x128_0_1_2 (broadcastInDim S1x1x128 ![2] bcast_S128_S1x1x128_2 (x5))))
      = Cert.Spec.layer x0 x1 x2 x3 x4 x5 x6 :=
  (val_main_v16_eq (F := Ideal) x0 x1 x2 x3 x4 x5 x6).trans (ref_eq x0 x1 x2 x3 x4 x5 x6)

end Cert.RefSide

end
-- ==== Proof.lean ====
/-
  The certificate of a dense graph-convolution layer against its reference:

      out = adj · ( prelu( adj · (x·W1ᵗ + b1) ; a )·W2ᵗ + b2 ),      N = 10000 nodes, 128 features.

  The kernel makes two sweeps of the adjacency in 25 strips of 400 rows. The first sweep keeps the hidden features
  x·W1ᵗ + b1 in one scratch buffer (computed at the first grid point) and fills a second scratch, strip by strip,
  with prelu(A_j · hidden)·W2ᵗ + b2; the second sweep multiplies each adjacency strip by the filled second scratch
  and writes the product to the output. The reference is the same five operations on whole arrays.

  • The three frames. For both forms of the kernel (the word-level one and its idealization) the body is run
    symbolically in each of its three control cases with every buffer's contents named, and the invariant carried
    from grid point to grid point says: the first scratch holds the hidden features, the second holds the strips
    stored so far over unknown contents (Proof/KCases.lean, Proof/KData.lean; Proof/BCases.lean, Proof/BData.lean
    are the same text for the word-level program). The reference is a straight-line host program; its frame is its
    run with the result dropped.
  • The idealization rewrote nothing, so that conjunct is trivial.
  • Equality over the extended reals. Every matrix product is a finite sum of products over the contraction index,
    on both sides over the same index set with the factors in the same order, so the two results are the same
    nested sums once the kernel's staged copies are read back as the argument arrays (the features reshaped, the two
    weight matrices transposed by the host before the kernel, the biases and slope reshaped). Both sides are shown
    equal to one specification, `Cert.Spec.layer` (Proof/Spec.lean): the kernel in Proof/KValue.lean (the 25 blocks
    written back tile the result), the reference in Proof/RefSide.lean. No algebraic law beyond re-indexing a sum is
    used; in particular the precondition (finite inputs) is never opened.
-/
import proofs.«142808_g28707561406990_cont_9to1_1291_10_alg».proof.Defs
import proofs.«142808_g28707561406990_cont_9to1_1291_10_alg».proof.Proof.Gen.Kernel
import proofs.«142808_g28707561406990_cont_9to1_1291_10_alg».proof.Proof.Gen.KernelIdeal
import proofs.«142808_g28707561406990_cont_9to1_1291_10_alg».proof.Proof.Gen.ReferenceIdeal
import proofs.«142808_g28707561406990_cont_9to1_1291_10_alg».proof.Proof.Gen.Pre_finite_inputs
import proofs.«142808_g28707561406990_cont_9to1_1291_10_alg».proof.Proof.Gen.ReferenceIdeal.Run
import proofs.«142808_g28707561406990_cont_9to1_1291_10_alg».proof.Proof.BData
import proofs.«142808_g28707561406990_cont_9to1_1291_10_alg».proof.Proof.KValue
import proofs.«142808_g28707561406990_cont_9to1_1291_10_alg».proof.Proof.RefSide

noncomputable section

namespace Cert.Proof

open Idealize.ShloMosaic Idealize.ShloMosaic.TcCoe Idealize.SL.Sem

/-- The word-level kernel runs and leaves its arguments unchanged. -/
theorem frame_p : Cert.frame_Kernel := fun m ρ _ => Cert.Kernel.Body.frame m ρ

/-- So does its idealization. -/
theorem frame_pi : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer of the specification at the (agreeing) argument arrays. -/
theorem algebraic : Cert.algebraic_KernelIdeal_ReferenceIdeal := by
  intro m ρ m' ρ' _ hagree
  refine ⟨fun c => Cert.Spec.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.RefSide.run_term_eq _ _ _ _ _ _ _).trans ?_
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
